-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v101)) (v1 : (c : Dev Cert.KernelIdeal.nD) → Buf (Elt Ideal) ((c.tc : Thread Cert.KernelIdeal.nD Cert.KernelIdeal.τ).loc Cert.KernelIdeal.main_v84)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v101) = v0 c
          ∧ r.2.mem ((c.tc : Thread Cert.KernelIdeal.nD Cert.KernelIdeal.τ).loc Cert.KernelIdeal.main_v84) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_v84) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S128x128 : Shape := ⟨2, ![128, 128]⟩
abbrev S128x16 : Shape := ⟨2, ![128, 16]⟩
abbrev S16 : Shape := ⟨1, ![16]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_

variable [Facts]

def fn_part2 {F : FTy → Type} [FloatOps F] (main_arg8 : FVec F S128x16 .f32) (main_arg9 : FVec F S16 .f32) (main_v33 : IVec S_ 1) : IVec S_ 1 :=
  let main_v34 : FVec F S128x16 .f32 := Host.absf main_arg8
  let main_cst_12 : FVec F S_ .f32 := constant S_ .f32 0x7F800000#32
  let main_v35 : FVec F S128x16 .f32 := broadcastInDim S128x16 ![] bcast_S_S128x16 main_cst_12
  let main_v36 : IVec S128x16 1 := cmpf .olt main_v34 main_v35
  let main_c_13 : IVec S_ 1 := constantI S_ 1 1#1
  let main_v37 : IVec S_ 1 := (fun x v => Host.reduce IntOp.andi x v reducesTo_S128x16_S_d0_1 h_S_) main_v36 main_c_13
  let main_v38 : IVec S_ 1 := andi main_v33 main_v37
  let main_v39 : FVec F S16 .f32 := Host.absf main_arg9
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  main_v43

def fn_part1 {F : FTy → Type} [FloatOps F] (main_arg5 : FVec F S128 .f32) (main_arg6 : FVec F S128x128 .f32) (main_arg7 : FVec F S128 .f32) (main_arg8 : FVec F S128x16 .f32) (main_arg9 : FVec F S16 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_v33

def fn {F : FTy → Type} [FloatOps F] (main_arg0 : FVec F S50000x256 .f32) (main_arg1 : IVec S2x800000 32) (main_arg2 : FVec F S256x128 .f32) (main_arg3 : FVec F S128 .f32) (main_arg4 : FVec F S128x128 .f32) (main_arg5 : FVec F S128 .f32) (main_arg6 : FVec F S128x128 .f32) (main_arg7 : FVec F S128 .f32) (main_arg8 : FVec F S128x16 .f32) (main_arg9 : FVec F S16 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S128x128 : Shape := ⟨2, ![128, 128]⟩
abbrev S128x16 : Shape := ⟨2, ![128, 16]⟩
abbrev S16 : Shape := ⟨1, ![16]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x128 : Shape := ⟨2, ![50000, 128]⟩
abbrev S2000x256 : Shape := ⟨2, ![2000, 256]⟩
abbrev S2000x128 : Shape := ⟨2, ![2000, 128]⟩
abbrev S850000x128 : Shape := ⟨2, ![850000, 128]⟩
abbrev S1x128 : Shape := ⟨2, ![1, 128]⟩
abbrev S50000x16 : Shape := ⟨2, ![50000, 16]⟩
abbrev S2000x16 : Shape := ⟨2, ![2000, 16]⟩
abbrev S850000x16 : Shape := ⟨2, ![850000, 16]⟩
abbrev S1x16 : Shape := ⟨2, ![1, 16]⟩

abbrev nBuf : Space → Nat
  | .hbm => 138
  | .vmem => 20
  | .smem => 0
  | _ => 0

abbrev hbmTy0_0 (i : Nat) : BufTy := match i % 128 with
  | 0 => ⟨S50000x256, .f32⟩
  | 1 => ⟨S2x800000, .i32⟩
  | 2 => ⟨S256x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S128x16, .f32⟩
  | 9 => ⟨S16, .f32⟩
  | 10 => ⟨S1x800000, .i32⟩
  | 11 => ⟨S800000, .i32⟩
  | 12 => ⟨S1x800000, .i32⟩
  | 13 => ⟨S800000, .i32⟩
  | 14 => ⟨S50000, .i32⟩
  | 15 => ⟨S850000, .i32⟩
  | 16 => ⟨S850000, .i32⟩
  | 17 => ⟨S_, .f32⟩
  | 18 => ⟨S850000, .f32⟩
  | 19 => ⟨S_, .f32⟩
  | 20 => ⟨S50000, .f32⟩
  | 21 => ⟨S850000x1, .i32⟩
  | 22 => ⟨S50000, .f32⟩
  | 23 => ⟨S_, .f32⟩
  | 24 => ⟨S50000, .f32⟩
  | 25 => ⟨S50000, .i1⟩
  | 26 => ⟨S50000, .f32⟩
  | 27 => ⟨S_, .f32⟩
  | 28 => ⟨S50000, .f32⟩
  | 29 => ⟨S50000, .f32⟩
  | 30 => ⟨S_, .i32⟩
  | 31 => ⟨S850000, .i32⟩
  | 32 => ⟨S850000, .i1⟩
  | 33 => ⟨S_, .i32⟩
  | 34 => ⟨S850000, .i32⟩
  | 35 => ⟨S850000, .i32⟩
  | 36 => ⟨S850000, .i32⟩
  | 37 => ⟨S850000x1, .i32⟩
  | 38 => ⟨S850000, .f32⟩
  | 39 => ⟨S_, .i32⟩
  | 40 => ⟨S850000, .i32⟩
  | 41 => ⟨S850000, .i1⟩
  | 42 => ⟨S_, .i32⟩
  | 43 => ⟨S850000, .i32⟩
  | 44 => ⟨S850000, .i32⟩
  | 45 => ⟨S850000, .i32⟩
  | 46 => ⟨S850000x1, .i32⟩
  | 47 => ⟨S850000, .f32⟩
  | 48 => ⟨S850000, .f32⟩
  | 49 => ⟨S50000x128, .f32⟩
  | 50 => ⟨S_, .i32⟩
  | 51 => ⟨S850000, .i32⟩
  | 52 => ⟨S850000, .i1⟩
  | 53 => ⟨S_, .i32⟩
  | 54 => ⟨S850000, .i32⟩
  | 55 => ⟨S850000, .i32⟩
  | 56 => ⟨S850000, .i32⟩
  | 57 => ⟨S850000x1, .i32⟩
  | 58 => ⟨S850000x128, .f32⟩
  | 59 => ⟨S850000x1, .f32⟩
  | 60 => ⟨S850000x128, .f32⟩
  | 61 => ⟨S850000x128, .f32⟩
  | 62 => ⟨S_, .f32⟩
  | 63 => ⟨S50000x128, .f32⟩
  | 64 => ⟨S850000x1, .i32⟩
  | 65 => ⟨S50000x128, .f32⟩
  | 66 => ⟨S1x128, .f32⟩
  | 67 => ⟨S50000x128, .f32⟩
  | 68 => ⟨S50000x128, .f32⟩
  | 69 => ⟨S_, .f32⟩
  | 70 => ⟨S50000x128, .f32⟩
  | 71 => ⟨S50000x128, .f32⟩
  | 72 => ⟨S50000x128, .f32⟩
  | 73 => ⟨S_, .i32⟩
  | 74 => ⟨S850000, .i32⟩
  | 75 => ⟨S850000, .i1⟩
  | 76 => ⟨S_, .i32⟩
  | 77 => ⟨S850000, .i32⟩
  | 78 => ⟨S850000, .i32⟩
  | 79 => ⟨S850000, .i32⟩
  | 80 => ⟨S850000x1, .i32⟩
  | 81 => ⟨S850000x128, .f32⟩
  | 82 => ⟨S850000x1, .f32⟩
  | 83 => ⟨S850000x128, .f32⟩
  | 84 => ⟨S850000x128, .f32⟩
  | 85 => ⟨S_, .f32⟩
  | 86 => ⟨S50000x128, .f32⟩
  | 87 => ⟨S850000x1, .i32⟩
  | 88 => ⟨S50000x128, .f32⟩
  | 89 => ⟨S1x128, .f32⟩
  | 90 => ⟨S50000x128, .f32⟩
  | 91 => ⟨S50000x128, .f32⟩
  | 92 => ⟨S_, .f32⟩
  | 93 => ⟨S50000x128, .f32⟩
  | 94 => ⟨S50000x128, .f32⟩
  | 95 => ⟨S50000x128, .f32⟩
  | 96 => ⟨S_, .i32⟩
  | 97 => ⟨S850000, .i32⟩
  | 98 => ⟨S850000, .i1⟩
  | 99 => ⟨S_, .i32⟩
  | 100 => ⟨S850000, .i32⟩
  | 101 => ⟨S850000, .i32⟩
  | 102 => ⟨S850000, .i32⟩
  | 103 => ⟨S850000x1, .i32⟩
  | 104 => ⟨S850000x128, .f32⟩
  | 105 => ⟨S850000x1, .f32⟩
  | 106 => ⟨S850000x128, .f32⟩
  | 107 => ⟨S850000x128, .f32⟩
  | 108 => ⟨S_, .f32⟩
  | 109 => ⟨S50000x128, .f32⟩
  | 110 => ⟨S850000x1, .i32⟩
  | 111 => ⟨S50000x128, .f32⟩
  | 112 => ⟨S1x128, .f32⟩
  | 113 => ⟨S50000x128, .f32⟩
  | 114 => ⟨S50000x128, .f32⟩
  | 115 => ⟨S_, .f32⟩
  | 116 => ⟨S50000x128, .f32⟩
  | 117 => ⟨S50000x128, .f32⟩
  | 118 => ⟨S50000x16, .f32⟩
  | 119 => ⟨S_, .i32⟩
  | 120 => ⟨S850000, .i32⟩
  | 121 => ⟨S850000, .i1⟩
  | 122 => ⟨S_, .i32⟩
  | 123 => ⟨S850000, .i32⟩
  | 124 => ⟨S850000, .i32⟩
  | 125 => ⟨S850000, .i32⟩
  | 126 => ⟨S850000x1, .i32⟩
  | 127 => ⟨S850000x16, .f32⟩
  | _ => ⟨S50000x256, .f32⟩

abbrev hbmTy0_1 (i : Nat) : BufTy := match i % 128 with
  | 0 => ⟨S850000x1, .f32⟩
  | 1 => ⟨S850000x16, .f32⟩
  | 2 => ⟨S850000x16, .f32⟩
  | 3 => ⟨S_, .f32⟩
  | 4 => ⟨S50000x16, .f32⟩
  | 5 => ⟨S850000x1, .i32⟩
  | 6 => ⟨S50000x16, .f32⟩
  | 7 => ⟨S1x16, .f32⟩
  | 8 => ⟨S50000x16, .f32⟩
  | 9 => ⟨S50000x16, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | .local _ .vmem, ⟨0, _⟩ => ⟨S2000x256, .f32⟩
  | .local _ .vmem, ⟨1, _⟩ => ⟨S2000x256, .f32⟩
  | .local _ .vmem, ⟨2, _⟩ => ⟨S256x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S128x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S128x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S128x16, .f32⟩
  | .local _ .vmem, ⟨18, _⟩ => ⟨S2000x16, .f32⟩
  | .local _ .vmem, ⟨19, _⟩ => ⟨S2000x16, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_8 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_call1_cst : Ref sig .tc := ⟨.hbm, 69, rfl⟩
abbrev main_call1_v0 : Ref sig .tc := ⟨.hbm, 70, rfl⟩
abbrev main_v48 : Ref sig .tc := ⟨.hbm, 71, rfl⟩
abbrev main_v49 : Ref sig .tc := ⟨.hbm, 72, rfl⟩
abbrev main_c_9 : Ref sig .tc := ⟨.hbm, 73, rfl⟩
abbrev main_v50 : Ref sig .tc := ⟨.hbm, 74, rfl⟩
abbrev main_v51 : Ref sig .tc := ⟨.hbm, 75, rfl⟩
abbrev main_c_10 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_11 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_call2_cst : Ref sig .tc := ⟨.hbm, 92, rfl⟩
abbrev main_call2_v0 : Ref sig .tc := ⟨.hbm, 93, rfl⟩
abbrev main_v66 : Ref sig .tc := ⟨.hbm, 94, rfl⟩
abbrev main_v67 : Ref sig .tc := ⟨.hbm, 95, rfl⟩
abbrev main_c_12 : Ref sig .tc := ⟨.hbm, 96, rfl⟩
abbrev main_v68 : Ref sig .tc := ⟨.hbm, 97, rfl⟩
abbrev main_v69 : Ref sig .tc := ⟨.hbm, 98, rfl⟩
abbrev main_c_13 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_cst_14 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_call3_cst : Ref sig .tc := ⟨.hbm, 115, rfl⟩
abbrev main_call3_v0 : Ref sig .tc := ⟨.hbm, 116, rfl⟩
abbrev main_v84 : Ref sig .tc := ⟨.hbm, 117, rfl⟩
abbrev main_v85 : Ref sig .tc := ⟨.hbm, 118, rfl⟩
abbrev main_c_15 : Ref sig .tc := ⟨.hbm, 119, rfl⟩
abbrev main_v86 : Ref sig .tc := ⟨.hbm, 120, rfl⟩
abbrev main_v87 : Ref sig .tc := ⟨.hbm, 121, rfl⟩
abbrev main_c_16 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_cst_17 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x16 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x16 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S2000x128_S2000x128_0_0 : ∀ a, (![0, 0] : Fin 2 → Nat) a + S2000x128.size a ≤ S2000x128.size a
  h_S2000x128 : 0 < S2000x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  inb_S128x16_S128x16_0_0 : ∀ a, (![0, 0] : Fin 2 → Nat) a + S128x16.size a ≤ S128x16.size a
  h_S128x16 : 0 < S128x16.numel
  inb_S2000x16_S2000x16_0_0 : ∀ a, (![0, 0] : Fin 2 → Nat) a + S2000x16.size a ≤ S2000x16.size a
  h_S2000x16 : 0 < S2000x16.numel
  bcast_S850000x1_S850000x16_0_1 : S850000x1.BroadcastsInDim S850000x16 (![0, 1] : Fin 2 → Fin S850000x16.rank)
  bcast_S_S50000x16 : S_.BroadcastsInDim S50000x16 (![] : Fin 0 → Fin S50000x16.rank)
  bcast_S16_S1x16_1 : S16.BroadcastsInDim S1x16 (![1] : Fin 1 → Fin S1x16.rank)
  bcast_S1x16_S50000x16_0_1 : S1x16.BroadcastsInDim S50000x16 (![0, 1] : Fin 2 → Fin S50000x16.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x256_S256x128_S2000x128_1_0_0_1_n_n_wf : DotDims.WF S2000x256 S256x128 S2000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S2000x128_S128x128_S2000x128_1_0_0_1_n_n_wf : DotDims.WF S2000x128 S128x128 S2000x128 [1] [0] [0] [1] [] []
  dot_S2000x128_S128x16_S2000x16_1_0_0_1_n_n_wf : DotDims.WF S2000x128 S128x16 S2000x16 [1] [0] [0] [1] [] []
  gather_S50000x16_S850000x1_S850000x16_1_0_n_n_0_1_116_wf : GatherDims.WF S50000x16 S850000x1 S850000x16 [1] [0] [] [0] [] 1 ![1, 16]
  scatter_S50000x16_S850000x1_S850000x16_1_0_0_1_wf : ScatterDims.WF S50000x16 S850000x1 S850000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S50000x128.size a
  hwx2_2 : ∀ i : grid2.Coords, EltTy.bits .f32 = 32 ∨ (Rect.block (s := S50000x128) S2000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x16.size a ≤ S128x16.size a
  hwx3_1 : ∀ i : grid3.Coords, EltTy.bits .f32 = 32 ∨ (Rect.block (s := S128x16) S128x16.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x16.size a ≤ S50000x16.size a
  hwx3_2 : ∀ i : grid3.Coords, EltTy.bits .f32 = 32 ∨ (Rect.block (s := S50000x16) S2000x16.size (cc3_transform_2 i) (hinb3_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x16_S2000x16_1_0_0_1_n_n : DotDims S2000x128 S128x16 S2000x16 where
  lhsContracting := [1]
  rhsContracting := [0]
  lhsNonContracting := [0]
  rhsNonContracting := [1]
  lhsBatch := []
  rhsBatch := []
  wf := dot_S2000x128_S128x16_S2000x16_1_0_0_1_n_n_wf
def gather_S50000x16_S850000x1_S850000x16_1_0_n_n_0_1_116 : GatherDims S50000x16 S850000x1 S850000x16 where
  offsetDims := [1]
  collapsedSliceDims := [0]
  operandBatchingDims := []
  startIndicesBatchingDims := []
  startIndexMap := [0]
  indexVectorDim := 1
  sliceSizes := ![1, 16]
  wf := gather_S50000x16_S850000x1_S850000x16_1_0_n_n_0_1_116_wf
def scatter_S50000x16_S850000x1_S850000x16_1_0_0_1 : ScatterDims S50000x16 S850000x1 S850000x16 where
  updateWindowDims := [1]
  insertedWindowDims := [0]
  scatterDimsToOperandDims := [0]
  indexVectorDim := 1
  wf := scatter_S50000x16_S850000x1_S850000x16_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v66) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v67) S2000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v84) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg8) S128x16.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v85) S2000x16.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S128x128 : Shape := ⟨2, ![128, 128]⟩
abbrev S128x16 : Shape := ⟨2, ![128, 16]⟩
abbrev S16 : Shape := ⟨1, ![16]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x128 : Shape := ⟨2, ![50000, 128]⟩
abbrev S850000x128 : Shape := ⟨2, ![850000, 128]⟩
abbrev S1x128 : Shape := ⟨2, ![1, 128]⟩
abbrev S50000x16 : Shape := ⟨2, ![50000, 16]⟩
abbrev S850000x16 : Shape := ⟨2, ![850000, 16]⟩
abbrev S1x16 : Shape := ⟨2, ![1, 16]⟩

abbrev nBuf : Space → Nat
  | .hbm => 138
  | .vmem => 0
  | .smem => 0
  | _ => 0

abbrev hbmTy0_0 (i : Nat) : BufTy := match i % 128 with
  | 0 => ⟨S50000x256, .f32⟩
  | 1 => ⟨S2x800000, .i32⟩
  | 2 => ⟨S256x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S128x16, .f32⟩
  | 9 => ⟨S16, .f32⟩
  | 10 => ⟨S1x800000, .i32⟩
  | 11 => ⟨S800000, .i32⟩
  | 12 => ⟨S1x800000, .i32⟩
  | 13 => ⟨S800000, .i32⟩
  | 14 => ⟨S50000, .i32⟩
  | 15 => ⟨S850000, .i32⟩
  | 16 => ⟨S850000, .i32⟩
  | 17 => ⟨S_, .f32⟩
  | 18 => ⟨S850000, .f32⟩
  | 19 => ⟨S_, .f32⟩
  | 20 => ⟨S50000, .f32⟩
  | 21 => ⟨S850000x1, .i32⟩
  | 22 => ⟨S50000, .f32⟩
  | 23 => ⟨S_, .f32⟩
  | 24 => ⟨S50000, .f32⟩
  | 25 => ⟨S50000, .i1⟩
  | 26 => ⟨S50000, .f32⟩
  | 27 => ⟨S_, .f32⟩
  | 28 => ⟨S50000, .f32⟩
  | 29 => ⟨S50000, .f32⟩
  | 30 => ⟨S_, .i32⟩
  | 31 => ⟨S850000, .i32⟩
  | 32 => ⟨S850000, .i1⟩
  | 33 => ⟨S_, .i32⟩
  | 34 => ⟨S850000, .i32⟩
  | 35 => ⟨S850000, .i32⟩
  | 36 => ⟨S850000, .i32⟩
  | 37 => ⟨S850000x1, .i32⟩
  | 38 => ⟨S850000, .f32⟩
  | 39 => ⟨S_, .i32⟩
  | 40 => ⟨S850000, .i32⟩
  | 41 => ⟨S850000, .i1⟩
  | 42 => ⟨S_, .i32⟩
  | 43 => ⟨S850000, .i32⟩
  | 44 => ⟨S850000, .i32⟩
  | 45 => ⟨S850000, .i32⟩
  | 46 => ⟨S850000x1, .i32⟩
  | 47 => ⟨S850000, .f32⟩
  | 48 => ⟨S850000, .f32⟩
  | 49 => ⟨S50000x128, .f32⟩
  | 50 => ⟨S_, .i32⟩
  | 51 => ⟨S850000, .i32⟩
  | 52 => ⟨S850000, .i1⟩
  | 53 => ⟨S_, .i32⟩
  | 54 => ⟨S850000, .i32⟩
  | 55 => ⟨S850000, .i32⟩
  | 56 => ⟨S850000, .i32⟩
  | 57 => ⟨S850000x1, .i32⟩
  | 58 => ⟨S850000x128, .f32⟩
  | 59 => ⟨S850000x1, .f32⟩
  | 60 => ⟨S850000x128, .f32⟩
  | 61 => ⟨S850000x128, .f32⟩
  | 62 => ⟨S_, .f32⟩
  | 63 => ⟨S50000x128, .f32⟩
  | 64 => ⟨S850000x1, .i32⟩
  | 65 => ⟨S50000x128, .f32⟩
  | 66 => ⟨S1x128, .f32⟩
  | 67 => ⟨S50000x128, .f32⟩
  | 68 => ⟨S50000x128, .f32⟩
  | 69 => ⟨S_, .f32⟩
  | 70 => ⟨S50000x128, .f32⟩
  | 71 => ⟨S50000x128, .f32⟩
  | 72 => ⟨S50000x128, .f32⟩
  | 73 => ⟨S_, .i32⟩
  | 74 => ⟨S850000, .i32⟩
  | 75 => ⟨S850000, .i1⟩
  | 76 => ⟨S_, .i32⟩
  | 77 => ⟨S850000, .i32⟩
  | 78 => ⟨S850000, .i32⟩
  | 79 => ⟨S850000, .i32⟩
  | 80 => ⟨S850000x1, .i32⟩
  | 81 => ⟨S850000x128, .f32⟩
  | 82 => ⟨S850000x1, .f32⟩
  | 83 => ⟨S850000x128, .f32⟩
  | 84 => ⟨S850000x128, .f32⟩
  | 85 => ⟨S_, .f32⟩
  | 86 => ⟨S50000x128, .f32⟩
  | 87 => ⟨S850000x1, .i32⟩
  | 88 => ⟨S50000x128, .f32⟩
  | 89 => ⟨S1x128, .f32⟩
  | 90 => ⟨S50000x128, .f32⟩
  | 91 => ⟨S50000x128, .f32⟩
  | 92 => ⟨S_, .f32⟩
  | 93 => ⟨S50000x128, .f32⟩
  | 94 => ⟨S50000x128, .f32⟩
  | 95 => ⟨S50000x128, .f32⟩
  | 96 => ⟨S_, .i32⟩
  | 97 => ⟨S850000, .i32⟩
  | 98 => ⟨S850000, .i1⟩
  | 99 => ⟨S_, .i32⟩
  | 100 => ⟨S850000, .i32⟩
  | 101 => ⟨S850000, .i32⟩
  | 102 => ⟨S850000, .i32⟩
  | 103 => ⟨S850000x1, .i32⟩
  | 104 => ⟨S850000x128, .f32⟩
  | 105 => ⟨S850000x1, .f32⟩
  | 106 => ⟨S850000x128, .f32⟩
  | 107 => ⟨S850000x128, .f32⟩
  | 108 => ⟨S_, .f32⟩
  | 109 => ⟨S50000x128, .f32⟩
  | 110 => ⟨S850000x1, .i32⟩
  | 111 => ⟨S50000x128, .f32⟩
  | 112 => ⟨S1x128, .f32⟩
  | 113 => ⟨S50000x128, .f32⟩
  | 114 => ⟨S50000x128, .f32⟩
  | 115 => ⟨S_, .f32⟩
  | 116 => ⟨S50000x128, .f32⟩
  | 117 => ⟨S50000x128, .f32⟩
  | 118 => ⟨S50000x16, .f32⟩
  | 119 => ⟨S_, .i32⟩
  | 120 => ⟨S850000, .i32⟩
  | 121 => ⟨S850000, .i1⟩
  | 122 => ⟨S_, .i32⟩
  | 123 => ⟨S850000, .i32⟩
  | 124 => ⟨S850000, .i32⟩
  | 125 => ⟨S850000, .i32⟩
  | 126 => ⟨S850000x1, .i32⟩
  | 127 => ⟨S850000x16, .f32⟩
  | _ => ⟨S50000x256, .f32⟩

abbrev hbmTy0_1 (i : Nat) : BufTy := match i % 128 with
  | 0 => ⟨S850000x1, .f32⟩
  | 1 => ⟨S850000x16, .f32⟩
  | 2 => ⟨S850000x16, .f32⟩
  | 3 => ⟨S_, .f32⟩
  | 4 => ⟨S50000x16, .f32⟩
  | 5 => ⟨S850000x1, .i32⟩
  | 6 => ⟨S50000x16, .f32⟩
  | 7 => ⟨S1x16, .f32⟩
  | 8 => ⟨S50000x16, .f32⟩
  | 9 => ⟨S50000x16, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_8 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_call1_cst : Ref sig .tc := ⟨.hbm, 69, rfl⟩
abbrev main_call1_v0 : Ref sig .tc := ⟨.hbm, 70, rfl⟩
abbrev main_v48 : Ref sig .tc := ⟨.hbm, 71, rfl⟩
abbrev main_v49 : Ref sig .tc := ⟨.hbm, 72, rfl⟩
abbrev main_c_9 : Ref sig .tc := ⟨.hbm, 73, rfl⟩
abbrev main_v50 : Ref sig .tc := ⟨.hbm, 74, rfl⟩
abbrev main_v51 : Ref sig .tc := ⟨.hbm, 75, rfl⟩
abbrev main_c_10 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_11 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_call2_cst : Ref sig .tc := ⟨.hbm, 92, rfl⟩
abbrev main_call2_v0 : Ref sig .tc := ⟨.hbm, 93, rfl⟩
abbrev main_v66 : Ref sig .tc := ⟨.hbm, 94, rfl⟩
abbrev main_v67 : Ref sig .tc := ⟨.hbm, 95, rfl⟩
abbrev main_c_12 : Ref sig .tc := ⟨.hbm, 96, rfl⟩
abbrev main_v68 : Ref sig .tc := ⟨.hbm, 97, rfl⟩
abbrev main_v69 : Ref sig .tc := ⟨.hbm, 98, rfl⟩
abbrev main_c_13 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_cst_14 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_call3_cst : Ref sig .tc := ⟨.hbm, 115, rfl⟩
abbrev main_call3_v0 : Ref sig .tc := ⟨.hbm, 116, rfl⟩
abbrev main_v84 : Ref sig .tc := ⟨.hbm, 117, rfl⟩
abbrev main_v85 : Ref sig .tc := ⟨.hbm, 118, rfl⟩
abbrev main_c_15 : Ref sig .tc := ⟨.hbm, 119, rfl⟩
abbrev main_v86 : Ref sig .tc := ⟨.hbm, 120, rfl⟩
abbrev main_v87 : Ref sig .tc := ⟨.hbm, 121, rfl⟩
abbrev main_c_16 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_cst_17 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x16_0_1 : S850000x1.BroadcastsInDim S850000x16 (![0, 1] : Fin 2 → Fin S850000x16.rank)
  bcast_S_S50000x16 : S_.BroadcastsInDim S50000x16 (![] : Fin 0 → Fin S50000x16.rank)
  bcast_S16_S1x16_1 : S16.BroadcastsInDim S1x16 (![1] : Fin 1 → Fin S1x16.rank)
  bcast_S1x16_S50000x16_0_1 : S1x16.BroadcastsInDim S50000x16 (![0, 1] : Fin 2 → Fin S50000x16.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x256_S256x128_S50000x128_1_0_0_1_n_n_wf : DotDims.WF S50000x256 S256x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x128_S50000x128_1_0_0_1_n_n_wf : DotDims.WF S50000x128 S128x128 S50000x128 [1] [0] [0] [1] [] []
  dot_S50000x128_S128x16_S50000x16_1_0_0_1_n_n_wf : DotDims.WF S50000x128 S128x16 S50000x16 [1] [0] [0] [1] [] []
  gather_S50000x16_S850000x1_S850000x16_1_0_n_n_0_1_116_wf : GatherDims.WF S50000x16 S850000x1 S850000x16 [1] [0] [] [0] [] 1 ![1, 16]
  scatter_S50000x16_S850000x1_S850000x16_1_0_0_1_wf : ScatterDims.WF S50000x16 S850000x1 S850000x16 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x16_S50000x16_1_0_0_1_n_n : DotDims S50000x128 S128x16 S50000x16 where
  lhsContracting := [1]
  rhsContracting := [0]
  lhsNonContracting := [0]
  rhsNonContracting := [1]
  lhsBatch := []
  rhsBatch := []
  wf := dot_S50000x128_S128x16_S50000x16_1_0_0_1_n_n_wf
def gather_S50000x16_S850000x1_S850000x16_1_0_n_n_0_1_116 : GatherDims S50000x16 S850000x1 S850000x16 where
  offsetDims := [1]
  collapsedSliceDims := [0]
  operandBatchingDims := []
  startIndicesBatchingDims := []
  startIndexMap := [0]
  indexVectorDim := 1
  sliceSizes := ![1, 16]
  wf := gather_S50000x16_S850000x1_S850000x16_1_0_n_n_0_1_116_wf
def scatter_S50000x16_S850000x1_S850000x16_1_0_0_1 : ScatterDims S50000x16 S850000x1 S850000x16 where
  updateWindowDims := [1]
  insertedWindowDims := [0]
  scatterDimsToOperandDims := [0]
  indexVectorDim := 1
  wf := scatter_S50000x16_S850000x1_S850000x16_1_0_0_1_wf

class Facts : Prop extends Facts₀ where

variable [Facts]
-- ==== Proof.LibMatmulSum.lean ====
/-
  A plain matrix product read at an index, at the ideal values.

  For dimension numbers that contract the left operand's axis 1 with the right operand's axis 0, with no batch axis — an
  [M, K] by [K, N] product into [M, N] — the operand indices at result index `j` and contraction index `q` are
  (j 0, q) and (q, j 1). So a `tpu.matmul` into a zero accumulator and the host's `dot_general` are, at every result
  index, the same sum over `k : Fin K` of `l (j 0, k) * r (k, j 1)` on the extended reals: no rounding, no order, and the
  change of float format on the way in is the identity.
-/
import Idealize.ShloMosaic.PureOps.Ideal.Laws
import Idealize.ShloMosaic.Lib.ValueIdx

noncomputable section

namespace Idealize.ShloMosaic.MatmulSum

open Idealize.ShloMosaic Idealize.ShloMosaic.ValueIdx

variable {M K N : Nat} (d : DotDims ⟨2, ![M, K]⟩ ⟨2, ![K, N]⟩ ⟨2, ![M, N]⟩)

/-- The one contraction axis has extent `K`. -/
theorem contr_rank (hlc : d.lhsContracting = [1]) : d.contr.rank = 1 := by
  rw [d.rank_contr, hlc]; rfl

theorem contr_size (hlc : d.lhsContracting = [1]) : d.contr.size ⟨0, by rw [contr_rank d hlc]; exact Nat.one_pos⟩ = K := by
  rw [d.size_contr 0 (by rw [hlc]; exact Nat.one_pos)]
  simp only [hlc, List.getElem_cons_zero]
  rfl

/-- Row coordinate of the left operand's index: the result's row. -/
theorem lhsIdx_row (hln : d.lhsNonContracting = [0]) (hlb : d.lhsBatch = [])
    (j : (⟨2, ![M, N]⟩ : Shape).Idx) (q : d.contr.Idx) : (d.lhsIdx j q 0).val = (j 0).val := by
  unfold DotDims.lhsIdx
  rw [dif_neg (by rw [hlb]; exact List.not_mem_nil), dif_pos (by rw [hln]; exact List.mem_singleton.mpr rfl)]
  simp only [Fin.val_cast]
  have key : ∀ (p r : Nat) (hp : p < 2) (hr : r < 2), p = r →
      (j ⟨p, hp⟩).val = (j ⟨r, hr⟩).val := fun p r hp hr h => by subst h; rfl
  exact key _ _ _ _ (by simp [hlb, hln])

/-- Column coordinate of the right operand's index: the result's column. -/
theorem rhsIdx_col (hln : d.lhsNonContracting = [0]) (hrn : d.rhsNonContracting = [1]) (hlb : d.lhsBatch = [])
    (hrb : d.rhsBatch = []) (j : (⟨2, ![M, N]⟩ : Shape).Idx) (q : d.contr.Idx) : (d.rhsIdx j q 1).val = (j 1).val := by
  unfold DotDims.rhsIdx
  rw [dif_neg (by rw [hrb]; exact List.not_mem_nil), dif_pos (by rw [hrn]; exact List.mem_singleton.mpr rfl)]
  simp only [Fin.val_cast]
  have key : ∀ (p r : Nat) (hp : p < 2) (hr : r < 2), p = r →
      (j ⟨p, hp⟩).val = (j ⟨r, hr⟩).val := fun p r hp hr h => by subst h; rfl
  exact key _ _ _ _ (by simp [hlb, hln, hrn])

/-- The contraction sum of a plain product, re-indexed over `Fin K`. -/
theorem sum_contr (hlc : d.lhsContracting = [1]) (hrc : d.rhsContracting = [0]) (hln : d.lhsNonContracting = [0])
    (hrn : d.rhsNonContracting = [1]) (hlb : d.lhsBatch = []) (hrb : d.rhsBatch = [])
    (l : (⟨2, ![M, K]⟩ : Shape).Idx → EReal) (r : (⟨2, ![K, N]⟩ : Shape).Idx → EReal) (j : (⟨2, ![M, N]⟩ : Shape).Idx) :
    ∑ q : d.contr.Idx, l (d.lhsIdx j q) * r (d.rhsIdx j q) = ∑ k : Fin K, l (ix2 (j 0) k) * r (ix2 k (j 1)) := by
  rw [← Equiv.sum_comp (contrEquiv1 d K (contr_rank d hlc) (contr_size d hlc)).symm]
  refine Finset.sum_congr rfl fun k _ => ?_
  have hk := contrEquiv1_symm_val d K (contr_rank d hlc) (contr_size d hlc) k
  have el : d.lhsIdx j ((contrEquiv1 d K (contr_rank d hlc) (contr_size d hlc)).symm k) = ix2 (j 0) k :=
    funext fun a => Fin.ext (by
      match a with
      | ⟨0, _⟩ => exact lhsIdx_row d hln hlb _ _
      | ⟨1, _⟩ => exact (d.lhsIdx_val_of_single hlc _ _).trans hk)
  have er : d.rhsIdx j ((contrEquiv1 d K (contr_rank d hlc) (contr_size d hlc)).symm k) = ix2 k (j 1) :=
    funext fun a => Fin.ext (by
      match a with
      | ⟨0, _⟩ => exact (d.rhsIdx_val_of_single hrc _ _).trans hk
      | ⟨1, _⟩ => exact rhsIdx_col d hln hrn hlb hrb _ _)
  exact congrArg₂ (fun a b => l a * r b) el er

/-- A `tpu.matmul` of a plain product into the zero splat, at an index: the sum of products over the shared axis. -/
theorem matmul_zero_apply {φ₁ φ₂ : FTy} (hlc : d.lhsContracting = [1]) (hrc : d.rhsContracting = [0])
    (hln : d.lhsNonContracting = [0]) (hrn : d.rhsNonContracting = [1]) (hlb : d.lhsBatch = []) (hrb : d.rhsBatch = [])
    (prec : Option ContractPrecision) (l : FVec Ideal ⟨2, ![M, K]⟩ φ₁) (r : FVec Ideal ⟨2, ![K, N]⟩ φ₂)
    (j : (⟨2, ![M, N]⟩ : Shape).Idx) :
    FloatOps.matmul d prec l r (constant ⟨2, ![M, N]⟩ .f32 0x00000000#32) j = ∑ k : Fin K, l (ix2 (j 0) k) * r (ix2 k (j 1)) :=
  (Ideal.matmul_constant_zero_apply d prec l r j).trans (sum_contr d hlc hrc hln hrn hlb hrb l r j)

/-- The host's `dot_general` of a plain product, at an index: the same sum. -/
theorem dotGeneral_apply {φ₁ φ₂ : FTy} (hlc : d.lhsContracting = [1]) (hrc : d.rhsContracting = [0])
    (hln : d.lhsNonContracting = [0]) (hrn : d.rhsNonContracting = [1]) (hlb : d.lhsBatch = []) (hrb : d.rhsBatch = [])
    (prec : Option ContractPrecision) (sched : HostSchedule) (l : FVec Ideal ⟨2, ![M, K]⟩ φ₁) (r : FVec Ideal ⟨2, ![K, N]⟩ φ₂)
    (j : (⟨2, ![M, N]⟩ : Shape).Idx) :
    FloatOps.dotGeneral d prec sched l r j = ∑ k : Fin K, l (ix2 (j 0) k) * r (ix2 k (j 1)) :=
  (Ideal.dotGeneral_apply d prec sched l r j).trans (sum_contr d hlc hrc hln hrn hlb hrb l r j)

end Idealize.ShloMosaic.MatmulSum

end
-- ==== Proof.LibProduct.lean ====
/-
  The product of a matrix of extended reals with another, as one function of its two factors.

  Entry (i, j) of the product of an [M, K] array with a [K, N] array is the sum over k of l (i, k) * r (k, j).
  On the extended reals a matrix unit's product into a zero accumulator and the host's dot_general (contraction of
  the left factor's columns with the right factor's rows, no batch axis) are both exactly this function.

  A block of consecutive rows of a product is the product of the same rows of the left factor with the whole right
  factor: each entry's sum runs over the whole shared axis and mentions one row of the left factor only. That is all
  that a product computed a band of rows at a time needs.
-/
import proofs.«135576_j36593121362339_1_alg».proof.Proof.LibMatmulSum

noncomputable section

namespace Cert.Product

open Idealize.ShloMosaic Idealize.ShloMosaic.ValueIdx

/-- The product of an [M, K] array and a [K, N] array: entry (i, j) is the sum over k of l (i, k) * r (k, j). -/
def mm {M K N : Nat} (l : (⟨2, ![M, K]⟩ : Shape).Idx → EReal) (r : (⟨2, ![K, N]⟩ : Shape).Idx → EReal) :
    (⟨2, ![M, N]⟩ : Shape).Idx → EReal :=
  fun j => ∑ k : Fin K, l (ix2 (j 0) k) * r (ix2 k (j 1))

theorem mm_apply {M K N : Nat} (l : (⟨2, ![M, K]⟩ : Shape).Idx → EReal) (r : (⟨2, ![K, N]⟩ : Shape).Idx → EReal)
    (j : (⟨2, ![M, N]⟩ : Shape).Idx) : mm l r j = ∑ k : Fin K, l (ix2 (j 0) k) * r (ix2 k (j 1)) := rfl

variable {M K N : Nat} (d : DotDims ⟨2, ![M, K]⟩ ⟨2, ![K, N]⟩ ⟨2, ![M, N]⟩)

/-- The host's dot_general of a plain product is the product. -/
theorem dotGeneral_eq_mm (hlc : d.lhsContracting = [1]) (hrc : d.rhsContracting = [0])
    (hln : d.lhsNonContracting = [0]) (hrn : d.rhsNonContracting = [1]) (hlb : d.lhsBatch = []) (hrb : d.rhsBatch = [])
    (prec : Option ContractPrecision) (l : FVec Ideal ⟨2, ![M, K]⟩ .f32) (r : FVec Ideal ⟨2, ![K, N]⟩ .f32) :
    Host.dotGeneral (F := Ideal) d prec l r = mm l r :=
  funext fun j => MatmulSum.dotGeneral_apply d hlc hrc hln hrn hlb hrb prec .single l r j

/-- A matrix unit's product into the zero accumulator is the product. -/
theorem matmul_zero_eq_mm (hlc : d.lhsContracting = [1]) (hrc : d.rhsContracting = [0])
    (hln : d.lhsNonContracting = [0]) (hrn : d.rhsNonContracting = [1]) (hlb : d.lhsBatch = []) (hrb : d.rhsBatch = [])
    (prec : Option ContractPrecision) (l : FVec Ideal ⟨2, ![M, K]⟩ .f32) (r : FVec Ideal ⟨2, ![K, N]⟩ .f32) :
    matmul (F := Ideal) d prec l r (constant ⟨2, ![M, N]⟩ .f32 0x00000000#32) = mm l r :=
  funext fun j => MatmulSum.matmul_zero_apply d hlc hrc hln hrn hlb hrb prec l r j

/-- Rows `o, o + 1, …` of a product: if `lb` holds the rows of `l` from row `o` on (`hl`), then the product of `lb`
    with `r` at (p, q) is the product of `l` with `r` at (o + p, q). -/
theorem mm_rows {M' : Nat} (l : (⟨2, ![M, K]⟩ : Shape).Idx → EReal) (lb : (⟨2, ![M', K]⟩ : Shape).Idx → EReal)
    (r : (⟨2, ![K, N]⟩ : Shape).Idx → EReal) (p : Fin M') (i : Fin M) (q : Fin N)
    (hl : ∀ k : Fin K, lb (ix2 p k) = l (ix2 i k)) :
    mm lb r (ix2 p q) = mm l r (ix2 i q) :=
  Finset.sum_congr rfl fun k _ => by rw [show (ix2 p q : (⟨2, ![M', N]⟩ : Shape).Idx) 0 = p from rfl,
    show (ix2 p q : (⟨2, ![M', N]⟩ : Shape).Idx) 1 = q from rfl, show (ix2 i q : (⟨2, ![M, N]⟩ : Shape).Idx) 0 = i from rfl,
    show (ix2 i q : (⟨2, ![M, N]⟩ : Shape).Idx) 1 = q from rfl, hl k]

end Cert.Product

end
-- ==== Proof.Band0.lean ====
/-
  Launch 0 of the matrix product kernel computes the whole product, a band of 2000 rows at a time.

  The grid has 25 points. Point t fetches rows 2000 t … 2000 t + 1999 of the left factor [50000, 256] and the whole
  right factor [256, 128], multiplies them on the matrix unit into a zero accumulator, and writes the band back as rows
  2000 t … 2000 t + 1999 of the result [50000, 128]. On the extended reals every entry of a band is the sum over the
  shared axis of products of one row of the left factor with one column of the right factor, which is that entry of the
  whole product; the 25 bands tile the rows, so the result array ends holding the product of the two arrays the launch
  found.
-/
import proofs.«135576_j36593121362339_1_alg».proof.Proof.Gen.KernelIdeal.Frame
import proofs.«135576_j36593121362339_1_alg».proof.Proof.LibProduct
import Idealize.ShloMosaic.Lib.Pipeline.Value
import Idealize.ShloMosaic.Lib.ValueIdx

set_option maxRecDepth 16384

noncomputable section

namespace Cert.KernelIdeal.Band0

open Idealize.ShloMosaic Idealize.ShloMosaic.TcCoe Idealize.SL.Sem Idealize.ShloMosaic.ValueIdx
open Idealize.ShloMosaic.Pipeline (Dat)
open Cert.KernelIdeal Cert.KernelIdeal.Gen Cert.Product

variable (V : (c : Dev nD) → (b : Ref sig .tc) → Buf (Elt Ideal) ((c : Thread nD τ).loc b))

theorem hz : (![0, 0] : Fin 2 → Nat) = fun _ => 0 := funext fun a => by fin_cases a <;> rfl

/-- One grid point's arithmetic: the band's product (the change of float format on the way in is the identity). -/
theorem pay (x0 : Vec Ideal S2000x256 .f32) (x1 : Vec Ideal S256x128 .f32) : k0_pay1 (F := Ideal) x0 x1 = mm x0 x1 :=
  funext fun j => MatmulSum.matmul_zero_apply dot_S2000x256_S256x128_S2000x128_1_0_0_1_n_n rfl rfl rfl rfl rfl rfl none _ _ j

/-- Where the three windows' blocks sit at each grid point: band t of the left factor and of the result, the whole
    right factor. -/
theorem idx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What grid point t writes back is band t of the product of the two arrays the launch found. -/
theorem flushed_eq (c : Dev nD) (t : Fin cfg0.N) :
    (dat0 V c).flushed 2 t = ((cfg0.win 2).blk t).view.read (Elt Ideal)
      (mm (V c main_arg0 : S50000x256.Idx → EReal) (V c main_arg2 : S256x128.Idx → EReal)) := by
  show (cfg0.win 2).cut (grid0.coords t) ((dat0 V c).after 2 t) = _
  rw [after0_2]
  unfold out0_2
  rw [View.canon_unit_zero hz]
  simp only [View.ld_unit_zero (S := S2000x256) hz, View.ld_unit_zero (S := S256x128) hz]
  rw [pay]
  obtain ⟨e0, e1, e2, e3, e4, e5⟩ := idx t
  have hN : cfg0.N = 25 := N_0
  funext j
  obtain ⟨p, q, rfl⟩ : ∃ (p : Fin 2000) (q : Fin 128), j = ix2 p q := ⟨j 0, j 1, eq_ix2 j⟩
  have hW : (iblk0 V c 1 t : Vec Ideal S256x128 .f32) = (V c main_arg2 : S256x128.Idx → EReal) := funext fun y => by
    show V c main_arg2 (((cfg0.win 1).blk t).view.emb y) = V c main_arg2 y
    refine congrArg _ (funext fun a => Fin.ext ?_)
    match a with
    | ⟨0, _⟩ => show win0_1.index t (0 : Fin 2) * 256 + 1 * (y 0).val = (y 0).val; omega
    | ⟨1, _⟩ => show win0_1.index t (1 : Fin 2) * 128 + 1 * (y 1).val = (y 1).val; omega
  have hrow : 2000 * t.val + p.val < 50000 := by have := t.isLt; have := p.isLt; omega
  show mm (iblk0 V c 0 t : Vec Ideal S2000x256 .f32) (iblk0 V c 1 t : Vec Ideal S256x128 .f32) (ix2 p q)
    = mm (V c main_arg0 : S50000x256.Idx → EReal) (V c main_arg2 : S256x128.Idx → EReal) (((cfg0.win 2).blk t).view.emb (ix2 p q))
  rw [hW]
  have hemb : ((cfg0.win 2).blk t).view.emb (ix2 p q) = (ix2 (⟨2000 * t.val + p.val, hrow⟩ : Fin 50000) q : S50000x128.Idx) :=
    funext fun a => Fin.ext (by
      match a with
      | ⟨0, _⟩ => show win0_2.index t (0 : Fin 2) * 2000 + 1 * p.val = 2000 * t.val + p.val; omega
      | ⟨1, _⟩ => show win0_2.index t (1 : Fin 2) * 128 + 1 * q.val = q.val; omega)
  rw [hemb]
  refine mm_rows (V c main_arg0 : S50000x256.Idx → EReal) (iblk0 V c 0 t : Vec Ideal S2000x256 .f32) (V c main_arg2 : S256x128.Idx → EReal)
    p ⟨2000 * t.val + p.val, hrow⟩ q fun k => ?_
  show V c main_arg0 (((cfg0.win 0).blk t).view.emb (ix2 p k)) = V c main_arg0 (ix2 (⟨2000 * t.val + p.val, hrow⟩ : Fin 50000) k : S50000x256.Idx)
  refine congrArg _ (funext fun a => Fin.ext ?_)
  match a with
  | ⟨0, _⟩ => show win0_0.index t (0 : Fin 2) * 2000 + 1 * p.val = 2000 * t.val + p.val; omega
  | ⟨1, _⟩ => show win0_0.index t (1 : Fin 2) * 256 + 1 * k.val = k.val; omega

/-- An entry of the result array lies in grid point t's band iff its row does. -/
theorem mem_blk (t : Fin cfg0.N) (i : S50000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v31).slice (win0_2.rect t)).set ↔ _
  rw [View.set_slice_whole, Rect.mem_set_unit]
  exact Iff.rfl

/-- The 25 bands tile the result array (row r is in band r / 2000), so after the launch it holds the product. -/
theorem final (c : Dev nD) :
    (dat0 V c).arrAt 2 cfg0.N = mm (V c main_arg0 : S50000x256.Idx → EReal) (V c main_arg2 : S256x128.Idx → EReal) :=
  (dat0 V c).arrAt_eq_of_cover 2 _ (fun t _ => flushed_eq V c t) fun i => by
    have hi0 : (i 0).val < 50000 := (i 0).isLt
    have hi1 : (i 1).val < 128 := (i 1).isLt
    have hN : cfg0.N = 25 := N_0
    have ht : (i 0).val / 2000 < cfg0.N := by rw [hN]; omega
    obtain ⟨-, -, -, -, e4, e5⟩ := idx ⟨(i 0).val / 2000, ht⟩
    refine ⟨⟨(i 0).val / 2000, ht⟩, flush0_2 _, ?_⟩
    rw [mem_blk]
    intro a
    match a with
    | ⟨0, _⟩ =>
      show win0_2.index ⟨(i 0).val / 2000, ht⟩ (0 : Fin 2) * 2000 ≤ (i 0).val ∧ (i 0).val < win0_2.index ⟨(i 0).val / 2000, ht⟩ (0 : Fin 2) * 2000 + 2000
      rw [e4]; show (i 0).val / 2000 * 2000 ≤ (i 0).val ∧ (i 0).val < (i 0).val / 2000 * 2000 + 2000; omega
    | ⟨1, _⟩ =>
      show win0_2.index ⟨(i 0).val / 2000, ht⟩ (1 : Fin 2) * 128 ≤ (i 1).val ∧ (i 1).val < win0_2.index ⟨(i 0).val / 2000, ht⟩ (1 : Fin 2) * 128 + 128
      rw [e5]; omega

end Cert.KernelIdeal.Band0

end
-- ==== Proof.Band1.lean ====
/-
  Launch 1 of the matrix product kernel computes the whole product, a band of 2000 rows at a time.

  The grid has 25 points. Point t fetches rows 2000 t … 2000 t + 1999 of the left factor [50000, 128] and the whole
  right factor [128, 128], multiplies them on the matrix unit into a zero accumulator, and writes the band back as rows
  2000 t … 2000 t + 1999 of the result [50000, 128]. On the extended reals every entry of a band is the sum over the
  shared axis of products of one row of the left factor with one column of the right factor, which is that entry of the
  whole product; the 25 bands tile the rows, so the result array ends holding the product of the two arrays the launch
  found.
-/
import proofs.«135576_j36593121362339_1_alg».proof.Proof.Gen.KernelIdeal.Frame
import proofs.«135576_j36593121362339_1_alg».proof.Proof.LibProduct
import Idealize.ShloMosaic.Lib.Pipeline.Value
import Idealize.ShloMosaic.Lib.ValueIdx

set_option maxRecDepth 16384

noncomputable section

namespace Cert.KernelIdeal.Band1

open Idealize.ShloMosaic Idealize.ShloMosaic.TcCoe Idealize.SL.Sem Idealize.ShloMosaic.ValueIdx
open Idealize.ShloMosaic.Pipeline (Dat)
open Cert.KernelIdeal Cert.KernelIdeal.Gen Cert.Product

variable (V : (c : Dev nD) → (b : Ref sig .tc) → Buf (Elt Ideal) ((c : Thread nD τ).loc b))

theorem hz : (![0, 0] : Fin 2 → Nat) = fun _ => 0 := funext fun a => by fin_cases a <;> rfl

/-- One grid point's arithmetic: the band's product (the change of float format on the way in is the identity). -/
theorem pay (x0 : Vec Ideal S2000x128 .f32) (x1 : Vec Ideal S128x128 .f32) : k1_pay1 (F := Ideal) x0 x1 = mm x0 x1 :=
  funext fun j => by
    rw [show k1_pay1 (F := Ideal) x0 x1 = matmul (F := Ideal) dot_S2000x128_S128x128_S2000x128_1_0_0_1_n_n none
        (truncf .bf16 (shapeCast S2000x128 x0 shapeCasts_S2000x128_S2000x128) bitsLt_bf16_f32) (truncf .bf16 x1 bitsLt_bf16_f32)
        (constant S2000x128 .f32 0x00000000#32) from rfl, shapeCast_self]
    exact MatmulSum.matmul_zero_apply dot_S2000x128_S128x128_S2000x128_1_0_0_1_n_n rfl rfl rfl rfl rfl rfl none _ _ j

/-- Where the three windows' blocks sit at each grid point: band t of the left factor and of the result, the whole
    right factor. -/
theorem idx : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What grid point t writes back is band t of the product of the two arrays the launch found. -/
theorem flushed_eq (c : Dev nD) (t : Fin cfg1.N) :
    (dat1 V c).flushed 2 t = ((cfg1.win 2).blk t).view.read (Elt Ideal)
      (mm (V c main_v48 : S50000x128.Idx → EReal) (V c main_arg4 : S128x128.Idx → EReal)) := by
  show (cfg1.win 2).cut (grid1.coords t) ((dat1 V c).after 2 t) = _
  rw [after1_2]
  unfold out1_2
  rw [View.canon_unit_zero hz]
  simp only [View.ld_unit_zero (S := S2000x128) hz, View.ld_unit_zero (S := S128x128) hz]
  rw [pay]
  obtain ⟨e0, e1, e2, e3, e4, e5⟩ := idx t
  have hN : cfg1.N = 25 := N_1
  funext j
  obtain ⟨p, q, rfl⟩ : ∃ (p : Fin 2000) (q : Fin 128), j = ix2 p q := ⟨j 0, j 1, eq_ix2 j⟩
  have hW : (iblk1 V c 1 t : Vec Ideal S128x128 .f32) = (V c main_arg4 : S128x128.Idx → EReal) := funext fun y => by
    show V c main_arg4 (((cfg1.win 1).blk t).view.emb y) = V c main_arg4 y
    refine congrArg _ (funext fun a => Fin.ext ?_)
    match a with
    | ⟨0, _⟩ => show win1_1.index t (0 : Fin 2) * 128 + 1 * (y 0).val = (y 0).val; omega
    | ⟨1, _⟩ => show win1_1.index t (1 : Fin 2) * 128 + 1 * (y 1).val = (y 1).val; omega
  have hrow : 2000 * t.val + p.val < 50000 := by have := t.isLt; have := p.isLt; omega
  show mm (iblk1 V c 0 t : Vec Ideal S2000x128 .f32) (iblk1 V c 1 t : Vec Ideal S128x128 .f32) (ix2 p q)
    = mm (V c main_v48 : S50000x128.Idx → EReal) (V c main_arg4 : S128x128.Idx → EReal) (((cfg1.win 2).blk t).view.emb (ix2 p q))
  rw [hW]
  have hemb : ((cfg1.win 2).blk t).view.emb (ix2 p q) = (ix2 (⟨2000 * t.val + p.val, hrow⟩ : Fin 50000) q : S50000x128.Idx) :=
    funext fun a => Fin.ext (by
      match a with
      | ⟨0, _⟩ => show win1_2.index t (0 : Fin 2) * 2000 + 1 * p.val = 2000 * t.val + p.val; omega
      | ⟨1, _⟩ => show win1_2.index t (1 : Fin 2) * 128 + 1 * q.val = q.val; omega)
  rw [hemb]
  refine mm_rows (V c main_v48 : S50000x128.Idx → EReal) (iblk1 V c 0 t : Vec Ideal S2000x128 .f32) (V c main_arg4 : S128x128.Idx → EReal)
    p ⟨2000 * t.val + p.val, hrow⟩ q fun k => ?_
  show V c main_v48 (((cfg1.win 0).blk t).view.emb (ix2 p k)) = V c main_v48 (ix2 (⟨2000 * t.val + p.val, hrow⟩ : Fin 50000) k : S50000x128.Idx)
  refine congrArg _ (funext fun a => Fin.ext ?_)
  match a with
  | ⟨0, _⟩ => show win1_0.index t (0 : Fin 2) * 2000 + 1 * p.val = 2000 * t.val + p.val; omega
  | ⟨1, _⟩ => show win1_0.index t (1 : Fin 2) * 128 + 1 * k.val = k.val; omega

/-- An entry of the result array lies in grid point t's band iff its row does. -/
theorem mem_blk (t : Fin cfg1.N) (i : S50000x128.Idx) :
    i ∈ ((cfg1.win 2).blk t).view.set ↔ ∀ a : Fin 2, win1_2.index t a * S2000x128.size a ≤ (i a).val ∧ (i a).val < win1_2.index t a * S2000x128.size a + S2000x128.size a := by
  show i ∈ ((View.whole main_v49).slice (win1_2.rect t)).set ↔ _
  rw [View.set_slice_whole, Rect.mem_set_unit]
  exact Iff.rfl

/-- The 25 bands tile the result array (row r is in band r / 2000), so after the launch it holds the product. -/
theorem final (c : Dev nD) :
    (dat1 V c).arrAt 2 cfg1.N = mm (V c main_v48 : S50000x128.Idx → EReal) (V c main_arg4 : S128x128.Idx → EReal) :=
  (dat1 V c).arrAt_eq_of_cover 2 _ (fun t _ => flushed_eq V c t) fun i => by
    have hi0 : (i 0).val < 50000 := (i 0).isLt
    have hi1 : (i 1).val < 128 := (i 1).isLt
    have hN : cfg1.N = 25 := N_1
    have ht : (i 0).val / 2000 < cfg1.N := by rw [hN]; omega
    obtain ⟨-, -, -, -, e4, e5⟩ := idx ⟨(i 0).val / 2000, ht⟩
    refine ⟨⟨(i 0).val / 2000, ht⟩, flush1_2 _, ?_⟩
    rw [mem_blk]
    intro a
    match a with
    | ⟨0, _⟩ =>
      show win1_2.index ⟨(i 0).val / 2000, ht⟩ (0 : Fin 2) * 2000 ≤ (i 0).val ∧ (i 0).val < win1_2.index ⟨(i 0).val / 2000, ht⟩ (0 : Fin 2) * 2000 + 2000
      rw [e4]; show (i 0).val / 2000 * 2000 ≤ (i 0).val ∧ (i 0).val < (i 0).val / 2000 * 2000 + 2000; omega
    | ⟨1, _⟩ =>
      show win1_2.index ⟨(i 0).val / 2000, ht⟩ (1 : Fin 2) * 128 ≤ (i 1).val ∧ (i 1).val < win1_2.index ⟨(i 0).val / 2000, ht⟩ (1 : Fin 2) * 128 + 128
      rw [e5]; omega

end Cert.KernelIdeal.Band1

end
-- ==== Proof.Band2.lean ====
/-
  Launch 2 of the matrix product kernel computes the whole product, a band of 2000 rows at a time.

  The grid has 25 points. Point t fetches rows 2000 t … 2000 t + 1999 of the left factor [50000, 128] and the whole
  right factor [128, 128], multiplies them on the matrix unit into a zero accumulator, and writes the band back as rows
  2000 t … 2000 t + 1999 of the result [50000, 128]. On the extended reals every entry of a band is the sum over the
  shared axis of products of one row of the left factor with one column of the right factor, which is that entry of the
  whole product; the 25 bands tile the rows, so the result array ends holding the product of the two arrays the launch
  found.
-/
import proofs.«135576_j36593121362339_1_alg».proof.Proof.Gen.KernelIdeal.Frame
import proofs.«135576_j36593121362339_1_alg».proof.Proof.LibProduct
import Idealize.ShloMosaic.Lib.Pipeline.Value
import Idealize.ShloMosaic.Lib.ValueIdx

set_option maxRecDepth 16384

noncomputable section

namespace Cert.KernelIdeal.Band2

open Idealize.ShloMosaic Idealize.ShloMosaic.TcCoe Idealize.SL.Sem Idealize.ShloMosaic.ValueIdx
open Idealize.ShloMosaic.Pipeline (Dat)
open Cert.KernelIdeal Cert.KernelIdeal.Gen Cert.Product

variable (V : (c : Dev nD) → (b : Ref sig .tc) → Buf (Elt Ideal) ((c : Thread nD τ).loc b))

theorem hz : (![0, 0] : Fin 2 → Nat) = fun _ => 0 := funext fun a => by fin_cases a <;> rfl

/-- One grid point's arithmetic: the band's product (the change of float format on the way in is the identity). -/
theorem pay (x0 : Vec Ideal S2000x128 .f32) (x1 : Vec Ideal S128x128 .f32) : k2_pay1 (F := Ideal) x0 x1 = mm x0 x1 :=
  funext fun j => by
    rw [show k2_pay1 (F := Ideal) x0 x1 = matmul (F := Ideal) dot_S2000x128_S128x128_S2000x128_1_0_0_1_n_n none
        (truncf .bf16 (shapeCast S2000x128 x0 shapeCasts_S2000x128_S2000x128) bitsLt_bf16_f32) (truncf .bf16 x1 bitsLt_bf16_f32)
        (constant S2000x128 .f32 0x00000000#32) from rfl, shapeCast_self]
    exact MatmulSum.matmul_zero_apply dot_S2000x128_S128x128_S2000x128_1_0_0_1_n_n rfl rfl rfl rfl rfl rfl none _ _ j

/-- Where the three windows' blocks sit at each grid point: band t of the left factor and of the result, the whole
    right factor. -/
theorem idx : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What grid point t writes back is band t of the product of the two arrays the launch found. -/
theorem flushed_eq (c : Dev nD) (t : Fin cfg2.N) :
    (dat2 V c).flushed 2 t = ((cfg2.win 2).blk t).view.read (Elt Ideal)
      (mm (V c main_v66 : S50000x128.Idx → EReal) (V c main_arg6 : S128x128.Idx → EReal)) := by
  show (cfg2.win 2).cut (grid2.coords t) ((dat2 V c).after 2 t) = _
  rw [after2_2]
  unfold out2_2
  rw [View.canon_unit_zero hz]
  simp only [View.ld_unit_zero (S := S2000x128) hz, View.ld_unit_zero (S := S128x128) hz]
  rw [pay]
  obtain ⟨e0, e1, e2, e3, e4, e5⟩ := idx t
  have hN : cfg2.N = 25 := N_2
  funext j
  obtain ⟨p, q, rfl⟩ : ∃ (p : Fin 2000) (q : Fin 128), j = ix2 p q := ⟨j 0, j 1, eq_ix2 j⟩
  have hW : (iblk2 V c 1 t : Vec Ideal S128x128 .f32) = (V c main_arg6 : S128x128.Idx → EReal) := funext fun y => by
    show V c main_arg6 (((cfg2.win 1).blk t).view.emb y) = V c main_arg6 y
    refine congrArg _ (funext fun a => Fin.ext ?_)
    match a with
    | ⟨0, _⟩ => show win2_1.index t (0 : Fin 2) * 128 + 1 * (y 0).val = (y 0).val; omega
    | ⟨1, _⟩ => show win2_1.index t (1 : Fin 2) * 128 + 1 * (y 1).val = (y 1).val; omega
  have hrow : 2000 * t.val + p.val < 50000 := by have := t.isLt; have := p.isLt; omega
  show mm (iblk2 V c 0 t : Vec Ideal S2000x128 .f32) (iblk2 V c 1 t : Vec Ideal S128x128 .f32) (ix2 p q)
    = mm (V c main_v66 : S50000x128.Idx → EReal) (V c main_arg6 : S128x128.Idx → EReal) (((cfg2.win 2).blk t).view.emb (ix2 p q))
  rw [hW]
  have hemb : ((cfg2.win 2).blk t).view.emb (ix2 p q) = (ix2 (⟨2000 * t.val + p.val, hrow⟩ : Fin 50000) q : S50000x128.Idx) :=
    funext fun a => Fin.ext (by
      match a with
      | ⟨0, _⟩ => show win2_2.index t (0 : Fin 2) * 2000 + 1 * p.val = 2000 * t.val + p.val; omega
      | ⟨1, _⟩ => show win2_2.index t (1 : Fin 2) * 128 + 1 * q.val = q.val; omega)
  rw [hemb]
  refine mm_rows (V c main_v66 : S50000x128.Idx → EReal) (iblk2 V c 0 t : Vec Ideal S2000x128 .f32) (V c main_arg6 : S128x128.Idx → EReal)
    p ⟨2000 * t.val + p.val, hrow⟩ q fun k => ?_
  show V c main_v66 (((cfg2.win 0).blk t).view.emb (ix2 p k)) = V c main_v66 (ix2 (⟨2000 * t.val + p.val, hrow⟩ : Fin 50000) k : S50000x128.Idx)
  refine congrArg _ (funext fun a => Fin.ext ?_)
  match a with
  | ⟨0, _⟩ => show win2_0.index t (0 : Fin 2) * 2000 + 1 * p.val = 2000 * t.val + p.val; omega
  | ⟨1, _⟩ => show win2_0.index t (1 : Fin 2) * 128 + 1 * k.val = k.val; omega

/-- An entry of the result array lies in grid point t's band iff its row does. -/
theorem mem_blk (t : Fin cfg2.N) (i : S50000x128.Idx) :
    i ∈ ((cfg2.win 2).blk t).view.set ↔ ∀ a : Fin 2, win2_2.index t a * S2000x128.size a ≤ (i a).val ∧ (i a).val < win2_2.index t a * S2000x128.size a + S2000x128.size a := by
  show i ∈ ((View.whole main_v67).slice (win2_2.rect t)).set ↔ _
  rw [View.set_slice_whole, Rect.mem_set_unit]
  exact Iff.rfl

/-- The 25 bands tile the result array (row r is in band r / 2000), so after the launch it holds the product. -/
theorem final (c : Dev nD) :
    (dat2 V c).arrAt 2 cfg2.N = mm (V c main_v66 : S50000x128.Idx → EReal) (V c main_arg6 : S128x128.Idx → EReal) :=
  (dat2 V c).arrAt_eq_of_cover 2 _ (fun t _ => flushed_eq V c t) fun i => by
    have hi0 : (i 0).val < 50000 := (i 0).isLt
    have hi1 : (i 1).val < 128 := (i 1).isLt
    have hN : cfg2.N = 25 := N_2
    have ht : (i 0).val / 2000 < cfg2.N := by rw [hN]; omega
    obtain ⟨-, -, -, -, e4, e5⟩ := idx ⟨(i 0).val / 2000, ht⟩
    refine ⟨⟨(i 0).val / 2000, ht⟩, flush2_2 _, ?_⟩
    rw [mem_blk]
    intro a
    match a with
    | ⟨0, _⟩ =>
      show win2_2.index ⟨(i 0).val / 2000, ht⟩ (0 : Fin 2) * 2000 ≤ (i 0).val ∧ (i 0).val < win2_2.index ⟨(i 0).val / 2000, ht⟩ (0 : Fin 2) * 2000 + 2000
      rw [e4]; show (i 0).val / 2000 * 2000 ≤ (i 0).val ∧ (i 0).val < (i 0).val / 2000 * 2000 + 2000; omega
    | ⟨1, _⟩ =>
      show win2_2.index ⟨(i 0).val / 2000, ht⟩ (1 : Fin 2) * 128 ≤ (i 1).val ∧ (i 1).val < win2_2.index ⟨(i 0).val / 2000, ht⟩ (1 : Fin 2) * 128 + 128
      rw [e5]; omega

end Cert.KernelIdeal.Band2

end
-- ==== Proof.Band3.lean ====
/-
  Launch 3 of the matrix product kernel computes the whole product, a band of 2000 rows at a time.

  The grid has 25 points. Point t fetches rows 2000 t … 2000 t + 1999 of the left factor [50000, 128] and the whole
  right factor [128, 16], multiplies them on the matrix unit into a zero accumulator, and writes the band back as rows
  2000 t … 2000 t + 1999 of the result [50000, 16]. On the extended reals every entry of a band is the sum over the
  shared axis of products of one row of the left factor with one column of the right factor, which is that entry of the
  whole product; the 25 bands tile the rows, so the result array ends holding the product of the two arrays the launch
  found.
-/
import proofs.«135576_j36593121362339_1_alg».proof.Proof.Gen.KernelIdeal.Frame
import proofs.«135576_j36593121362339_1_alg».proof.Proof.LibProduct
import Idealize.ShloMosaic.Lib.Pipeline.Value
import Idealize.ShloMosaic.Lib.ValueIdx

set_option maxRecDepth 16384

noncomputable section

namespace Cert.KernelIdeal.Band3

open Idealize.ShloMosaic Idealize.ShloMosaic.TcCoe Idealize.SL.Sem Idealize.ShloMosaic.ValueIdx
open Idealize.ShloMosaic.Pipeline (Dat)
open Cert.KernelIdeal Cert.KernelIdeal.Gen Cert.Product

variable (V : (c : Dev nD) → (b : Ref sig .tc) → Buf (Elt Ideal) ((c : Thread nD τ).loc b))

theorem hz : (![0, 0] : Fin 2 → Nat) = fun _ => 0 := funext fun a => by fin_cases a <;> rfl

/-- One grid point's arithmetic: the band's product (the change of float format on the way in is the identity). -/
theorem pay (x0 : Vec Ideal S2000x128 .f32) (x1 : Vec Ideal S128x16 .f32) : k3_pay1 (F := Ideal) x0 x1 = mm x0 x1 :=
  funext fun j => by
    rw [show k3_pay1 (F := Ideal) x0 x1 = matmul (F := Ideal) dot_S2000x128_S128x16_S2000x16_1_0_0_1_n_n none
        (truncf .bf16 (shapeCast S2000x128 x0 shapeCasts_S2000x128_S2000x128) bitsLt_bf16_f32) (truncf .bf16 x1 bitsLt_bf16_f32)
        (constant S2000x16 .f32 0x00000000#32) from rfl, shapeCast_self]
    exact MatmulSum.matmul_zero_apply dot_S2000x128_S128x16_S2000x16_1_0_0_1_n_n rfl rfl rfl rfl rfl rfl none _ _ j

/-- Where the three windows' blocks sit at each grid point: band t of the left factor and of the result, the whole
    right factor. -/
theorem idx : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What grid point t writes back is band t of the product of the two arrays the launch found. -/
theorem flushed_eq (c : Dev nD) (t : Fin cfg3.N) :
    (dat3 V c).flushed 2 t = ((cfg3.win 2).blk t).view.read (Elt Ideal)
      (mm (V c main_v84 : S50000x128.Idx → EReal) (V c main_arg8 : S128x16.Idx → EReal)) := by
  show (cfg3.win 2).cut (grid3.coords t) ((dat3 V c).after 2 t) = _
  rw [after3_2]
  unfold out3_2
  rw [View.canon_unit_zero hz]
  simp only [View.ld_unit_zero (S := S2000x128) hz, View.ld_unit_zero (S := S128x16) hz]
  rw [pay]
  obtain ⟨e0, e1, e2, e3, e4, e5⟩ := idx t
  have hN : cfg3.N = 25 := N_3
  funext j
  obtain ⟨p, q, rfl⟩ : ∃ (p : Fin 2000) (q : Fin 16), j = ix2 p q := ⟨j 0, j 1, eq_ix2 j⟩
  have hW : (iblk3 V c 1 t : Vec Ideal S128x16 .f32) = (V c main_arg8 : S128x16.Idx → EReal) := funext fun y => by
    show V c main_arg8 (((cfg3.win 1).blk t).view.emb y) = V c main_arg8 y
    refine congrArg _ (funext fun a => Fin.ext ?_)
    match a with
    | ⟨0, _⟩ => show win3_1.index t (0 : Fin 2) * 128 + 1 * (y 0).val = (y 0).val; omega
    | ⟨1, _⟩ => show win3_1.index t (1 : Fin 2) * 16 + 1 * (y 1).val = (y 1).val; omega
  have hrow : 2000 * t.val + p.val < 50000 := by have := t.isLt; have := p.isLt; omega
  show mm (iblk3 V c 0 t : Vec Ideal S2000x128 .f32) (iblk3 V c 1 t : Vec Ideal S128x16 .f32) (ix2 p q)
    = mm (V c main_v84 : S50000x128.Idx → EReal) (V c main_arg8 : S128x16.Idx → EReal) (((cfg3.win 2).blk t).view.emb (ix2 p q))
  rw [hW]
  have hemb : ((cfg3.win 2).blk t).view.emb (ix2 p q) = (ix2 (⟨2000 * t.val + p.val, hrow⟩ : Fin 50000) q : S50000x16.Idx) :=
    funext fun a => Fin.ext (by
      match a with
      | ⟨0, _⟩ => show win3_2.index t (0 : Fin 2) * 2000 + 1 * p.val = 2000 * t.val + p.val; omega
      | ⟨1, _⟩ => show win3_2.index t (1 : Fin 2) * 16 + 1 * q.val = q.val; omega)
  rw [hemb]
  refine mm_rows (V c main_v84 : S50000x128.Idx → EReal) (iblk3 V c 0 t : Vec Ideal S2000x128 .f32) (V c main_arg8 : S128x16.Idx → EReal)
    p ⟨2000 * t.val + p.val, hrow⟩ q fun k => ?_
  show V c main_v84 (((cfg3.win 0).blk t).view.emb (ix2 p k)) = V c main_v84 (ix2 (⟨2000 * t.val + p.val, hrow⟩ : Fin 50000) k : S50000x128.Idx)
  refine congrArg _ (funext fun a => Fin.ext ?_)
  match a with
  | ⟨0, _⟩ => show win3_0.index t (0 : Fin 2) * 2000 + 1 * p.val = 2000 * t.val + p.val; omega
  | ⟨1, _⟩ => show win3_0.index t (1 : Fin 2) * 128 + 1 * k.val = k.val; omega

/-- An entry of the result array lies in grid point t's band iff its row does. -/
theorem mem_blk (t : Fin cfg3.N) (i : S50000x16.Idx) :
    i ∈ ((cfg3.win 2).blk t).view.set ↔ ∀ a : Fin 2, win3_2.index t a * S2000x16.size a ≤ (i a).val ∧ (i a).val < win3_2.index t a * S2000x16.size a + S2000x16.size a := by
  show i ∈ ((View.whole main_v85).slice (win3_2.rect t)).set ↔ _
  rw [View.set_slice_whole, Rect.mem_set_unit]
  exact Iff.rfl

/-- The 25 bands tile the result array (row r is in band r / 2000), so after the launch it holds the product. -/
theorem final (c : Dev nD) :
    (dat3 V c).arrAt 2 cfg3.N = mm (V c main_v84 : S50000x128.Idx → EReal) (V c main_arg8 : S128x16.Idx → EReal) :=
  (dat3 V c).arrAt_eq_of_cover 2 _ (fun t _ => flushed_eq V c t) fun i => by
    have hi0 : (i 0).val < 50000 := (i 0).isLt
    have hi1 : (i 1).val < 16 := (i 1).isLt
    have hN : cfg3.N = 25 := N_3
    have ht : (i 0).val / 2000 < cfg3.N := by rw [hN]; omega
    obtain ⟨-, -, -, -, e4, e5⟩ := idx ⟨(i 0).val / 2000, ht⟩
    refine ⟨⟨(i 0).val / 2000, ht⟩, flush3_2 _, ?_⟩
    rw [mem_blk]
    intro a
    match a with
    | ⟨0, _⟩ =>
      show win3_2.index ⟨(i 0).val / 2000, ht⟩ (0 : Fin 2) * 2000 ≤ (i 0).val ∧ (i 0).val < win3_2.index ⟨(i 0).val / 2000, ht⟩ (0 : Fin 2) * 2000 + 2000
      rw [e4]; show (i 0).val / 2000 * 2000 ≤ (i 0).val ∧ (i 0).val < (i 0).val / 2000 * 2000 + 2000; omega
    | ⟨1, _⟩ =>
      show win3_2.index ⟨(i 0).val / 2000, ht⟩ (1 : Fin 2) * 16 ≤ (i 1).val ∧ (i 1).val < win3_2.index ⟨(i 0).val / 2000, ht⟩ (1 : Fin 2) * 16 + 16
      rw [e5]; omega

end Cert.KernelIdeal.Band3

end
-- ==== Proof.KProd.lean ====
/-
  The four launches of the matrix product kernel, each as the one array operation it stands for: the host's product of
  the launch's two operand arrays, written to its result array.
-/
import proofs.«135576_j36593121362339_1_alg».proof.KernelIdeal
import proofs.«135576_j36593121362339_1_alg».proof.Proof.Gen.ReferenceIdeal
import Idealize.ShloMosaic.Lib.StableHlo.Run

noncomputable section

namespace Cert.KernelIdeal.KProd

open Idealize.ShloMosaic Idealize.ShloMosaic.TcCoe Idealize.SL.Sem Idealize.ShloMosaic.StableHlo
open Cert.KernelIdeal

variable {F : FTy → Type} [FloatOps F]

/-- Launch 0 as one array operation: the host's product of its two operand arrays, written to its result array. -/
abbrev prod0 : HloOp τ sig (Elt F) :=
  StableHlo.binary main_arg0 main_arg2 main_v31
    ((fun l r => Host.dotGeneral Cert.ReferenceIdeal.dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F))

/-- Launch 1 as one array operation: the host's product of its two operand arrays, written to its result array. -/
abbrev prod1 : HloOp τ sig (Elt F) :=
  StableHlo.binary main_v48 main_arg4 main_v49
    ((fun l r => Host.dotGeneral Cert.ReferenceIdeal.dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F))

/-- Launch 2 as one array operation: the host's product of its two operand arrays, written to its result array. -/
abbrev prod2 : HloOp τ sig (Elt F) :=
  StableHlo.binary main_v66 main_arg6 main_v67
    ((fun l r => Host.dotGeneral Cert.ReferenceIdeal.dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F))

/-- Launch 3 as one array operation: the host's product of its two operand arrays, written to its result array. -/
abbrev prod3 : HloOp τ sig (Elt F) :=
  StableHlo.binary main_v84 main_arg8 main_v85
    ((fun l r => Host.dotGeneral Cert.ReferenceIdeal.dot_S50000x128_S128x16_S50000x16_1_0_0_1_n_n none l r) : (⟨S50000x128, .f32⟩ : BufTy).Contents (Elt F) → (⟨S128x16, .f32⟩ : BufTy).Contents (Elt F) → (⟨S50000x16, .f32⟩ : BufTy).Contents (Elt F))

end Cert.KernelIdeal.KProd

end
-- ==== Proof.KLaunch.lean ====
/-
  Each launch of the matrix product kernel leaves the memory as one host product would.

  A launch's three arrays are its two factors and its result. The factors are only read, so they end as they were; the
  result ends at the product of the two factors (the 25 bands of rows the grid points write tile it, and each band is
  that band of the whole product); every other buffer is untouched. That is exactly how one host operation
  "result := dot_general (left, right)" changes a memory.
-/
import proofs.«135576_j36593121362339_1_alg».proof.Proof.Gen.KernelIdeal.Frame
import proofs.«135576_j36593121362339_1_alg».proof.Proof.Gen.ReferenceIdeal
import proofs.«135576_j36593121362339_1_alg».proof.Proof.Band0
import proofs.«135576_j36593121362339_1_alg».proof.Proof.Band1
import proofs.«135576_j36593121362339_1_alg».proof.Proof.Band2
import proofs.«135576_j36593121362339_1_alg».proof.Proof.Band3
import proofs.«135576_j36593121362339_1_alg».proof.Proof.KProd
import Idealize.ShloMosaic.Lib.StableHlo.Run

set_option maxRecDepth 16384

noncomputable section

namespace Cert.KernelIdeal.KLaunch

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-- Launch 0 changes the memory exactly as that one operation would: the result array ends at the product of the two
    arrays the launch found (its bands tile it), the factors and every other buffer are as they were. -/
theorem W4_eq (c : Dev nD) : W4 m ρ c = (KProd.prod0 (F := Ideal)).result (W3 m ρ c) := by
  funext b
  by_cases h : ∃ w, Proc.devRef .tc (Pipeline.arrRef spec0 w) = b
  · obtain ⟨w, rfl⟩ := h
    rcases w with ⟨_ | _ | _ | n, hw⟩
    · refine ((W4_arr m ρ c 0).trans (((dat0 (V3 m ρ) c).arrAt_in 0 rfl _).trans (A_eq0 (V3 m ρ) c 0))).trans ?_
      exact (binary_result_ne main_arg0 main_arg2 main_v31 _ _ _ _ (W3 m ρ c) (r := main_arg0) (by decide)).symm
    · refine ((W4_arr m ρ c 1).trans (((dat0 (V3 m ρ) c).arrAt_in 1 rfl _).trans (A_eq0 (V3 m ρ) c 1))).trans ?_
      exact (binary_result_ne main_arg0 main_arg2 main_v31 _ _ _ _ (W3 m ρ c) (r := main_arg2) (by decide)).symm
    · refine ((W4_arr m ρ c 2).trans (Band0.final (V3 m ρ) c)).trans ?_
      refine Eq.trans ?_ (binary_result main_arg0 main_arg2 main_v31 _ _ _ _ (W3 m ρ c)).symm
      exact (Cert.Product.dotGeneral_eq_mm Cert.ReferenceIdeal.dot_S50000x256_S256x128_S50000x128_1_0_0_1_n_n rfl rfl rfl rfl rfl rfl none _ _).symm
    · exact absurd hw (by omega)
  · refine Eq.trans ?_ (HloOp.result_of_not_mem _ _ ?_).symm
    · unfold W4 Pipeline.withArrays; rw [dif_neg h]
    · rw [binary_writes, Finset.mem_singleton]
      intro e
      exact h ⟨2, e.symm⟩

/-- Launch 1 changes the memory exactly as that one operation would: the result array ends at the product of the two
    arrays the launch found (its bands tile it), the factors and every other buffer are as they were. -/
theorem W7_eq (c : Dev nD) : W7 m ρ c = (KProd.prod1 (F := Ideal)).result (W6 m ρ c) := by
  funext b
  by_cases h : ∃ w, Proc.devRef .tc (Pipeline.arrRef spec1 w) = b
  · obtain ⟨w, rfl⟩ := h
    rcases w with ⟨_ | _ | _ | n, hw⟩
    · refine ((W7_arr m ρ c 0).trans (((dat1 (V6 m ρ) c).arrAt_in 0 rfl _).trans (A_eq1 (V6 m ρ) c 0))).trans ?_
      exact (binary_result_ne main_v48 main_arg4 main_v49 _ _ _ _ (W6 m ρ c) (r := main_v48) (by decide)).symm
    · refine ((W7_arr m ρ c 1).trans (((dat1 (V6 m ρ) c).arrAt_in 1 rfl _).trans (A_eq1 (V6 m ρ) c 1))).trans ?_
      exact (binary_result_ne main_v48 main_arg4 main_v49 _ _ _ _ (W6 m ρ c) (r := main_arg4) (by decide)).symm
    · refine ((W7_arr m ρ c 2).trans (Band1.final (V6 m ρ) c)).trans ?_
      refine Eq.trans ?_ (binary_result main_v48 main_arg4 main_v49 _ _ _ _ (W6 m ρ c)).symm
      exact (Cert.Product.dotGeneral_eq_mm Cert.ReferenceIdeal.dot_S50000x128_S128x128_S50000x128_1_0_0_1_n_n rfl rfl rfl rfl rfl rfl none _ _).symm
    · exact absurd hw (by omega)
  · refine Eq.trans ?_ (HloOp.result_of_not_mem _ _ ?_).symm
    · unfold W7 Pipeline.withArrays; rw [dif_neg h]
    · rw [binary_writes, Finset.mem_singleton]
      intro e
      exact h ⟨2, e.symm⟩

/-- Launch 2 changes the memory exactly as that one operation would: the result array ends at the product of the two
    arrays the launch found (its bands tile it), the factors and every other buffer are as they were. -/
theorem W10_eq (c : Dev nD) : W10 m ρ c = (KProd.prod2 (F := Ideal)).result (W9 m ρ c) := by
  funext b
  by_cases h : ∃ w, Proc.devRef .tc (Pipeline.arrRef spec2 w) = b
  · obtain ⟨w, rfl⟩ := h
    rcases w with ⟨_ | _ | _ | n, hw⟩
    · refine ((W10_arr m ρ c 0).trans (((dat2 (V9 m ρ) c).arrAt_in 0 rfl _).trans (A_eq2 (V9 m ρ) c 0))).trans ?_
      exact (binary_result_ne main_v66 main_arg6 main_v67 _ _ _ _ (W9 m ρ c) (r := main_v66) (by decide)).symm
    · refine ((W10_arr m ρ c 1).trans (((dat2 (V9 m ρ) c).arrAt_in 1 rfl _).trans (A_eq2 (V9 m ρ) c 1))).trans ?_
      exact (binary_result_ne main_v66 main_arg6 main_v67 _ _ _ _ (W9 m ρ c) (r := main_arg6) (by decide)).symm
    · refine ((W10_arr m ρ c 2).trans (Band2.final (V9 m ρ) c)).trans ?_
      refine Eq.trans ?_ (binary_result main_v66 main_arg6 main_v67 _ _ _ _ (W9 m ρ c)).symm
      exact (Cert.Product.dotGeneral_eq_mm Cert.ReferenceIdeal.dot_S50000x128_S128x128_S50000x128_1_0_0_1_n_n rfl rfl rfl rfl rfl rfl none _ _).symm
    · exact absurd hw (by omega)
  · refine Eq.trans ?_ (HloOp.result_of_not_mem _ _ ?_).symm
    · unfold W10 Pipeline.withArrays; rw [dif_neg h]
    · rw [binary_writes, Finset.mem_singleton]
      intro e
      exact h ⟨2, e.symm⟩

/-- Launch 3 changes the memory exactly as that one operation would: the result array ends at the product of the two
    arrays the launch found (its bands tile it), the factors and every other buffer are as they were. -/
theorem W13_eq (c : Dev nD) : W13 m ρ c = (KProd.prod3 (F := Ideal)).result (W12 m ρ c) := by
  funext b
  by_cases h : ∃ w, Proc.devRef .tc (Pipeline.arrRef spec3 w) = b
  · obtain ⟨w, rfl⟩ := h
    rcases w with ⟨_ | _ | _ | n, hw⟩
    · refine ((W13_arr m ρ c 0).trans (((dat3 (V12 m ρ) c).arrAt_in 0 rfl _).trans (A_eq3 (V12 m ρ) c 0))).trans ?_
      exact (binary_result_ne main_v84 main_arg8 main_v85 _ _ _ _ (W12 m ρ c) (r := main_v84) (by decide)).symm
    · refine ((W13_arr m ρ c 1).trans (((dat3 (V12 m ρ) c).arrAt_in 1 rfl _).trans (A_eq3 (V12 m ρ) c 1))).trans ?_
      exact (binary_result_ne main_v84 main_arg8 main_v85 _ _ _ _ (W12 m ρ c) (r := main_arg8) (by decide)).symm
    · refine ((W13_arr m ρ c 2).trans (Band3.final (V12 m ρ) c)).trans ?_
      refine Eq.trans ?_ (binary_result main_v84 main_arg8 main_v85 _ _ _ _ (W12 m ρ c)).symm
      exact (Cert.Product.dotGeneral_eq_mm Cert.ReferenceIdeal.dot_S50000x128_S128x16_S50000x16_1_0_0_1_n_n rfl rfl rfl rfl rfl rfl none _ _).symm
    · exact absurd hw (by omega)
  · refine Eq.trans ?_ (HloOp.result_of_not_mem _ _ ?_).symm
    · unfold W13 Pipeline.withArrays; rw [dif_neg h]
    · rw [binary_writes, Finset.mem_singleton]
      intro e
      exact h ⟨2, e.symm⟩

end Cert.KernelIdeal.KLaunch

end
-- ==== Proof.Net.lean ====
/-
  The graph convolution network both programs compute, as functions of the argument arrays.

  The edge list ei : [2, 800000] gives 800000 (source, target) pairs of nodes; every node also sends a message to
  itself, so there are 850000 messages with sources src ei and targets dst ei. The degree of a node is the number
  of messages it receives, dis is deg^(-1/2) (0 where the degree is not positive), and the weight of message e is
  norm e = dis (src e) * dis (dst e). One convolution of node features h with weights W and bias b is: the product
  hw = h · W; for every message e the row hw (src e) scaled by norm e; those rows summed into their target nodes;
  plus b on every row. Three convolutions into 128 features, each followed by max(·, 0), give the latent features;
  a fourth into 16 features gives the output.

  Only the four products h · W are computed differently by the two programs (a row-tiled matrix unit product against
  one whole dot_general); everything else here is the same list of array operations in both, kept as opaque terms.
-/
import proofs.«135576_j36593121362339_1_alg».proof.ReferenceIdeal
import Idealize.ShloMosaic.PureOps.Ideal

noncomputable section

namespace Cert.Net

open Cert.ReferenceIdeal Cert.ReferenceIdeal.Facts₀ Cert.ReferenceIdeal.Facts Idealize.ShloMosaic

variable {F : FTy → Type} [FloatOps F] [Cert.ReferenceIdeal.Facts]

/-- A vector of 850000 message indices or weights as a column [850000, 1]. -/
abbrev col {e : EltTy} (v : (⟨S850000, e⟩ : BufTy).Contents (Elt F)) : (⟨S850000x1, e⟩ : BufTy).Contents (Elt F) :=
  broadcastInDim S850000x1 ![0] bcast_S850000_S850000x1_0 v

/-- The sources of the 850000 messages: row 0 of the edge list, then every node once. -/
def src (ei : (⟨S2x800000, .i32⟩ : BufTy).Contents (Elt F)) : (⟨S850000, .i32⟩ : BufTy).Contents (Elt F) :=
  concatenate S850000 0 [⟨S800000, shapeCast S800000 (extractStridedSlice S1x800000 ![0, 0] ei slices_S2x800000_S1x800000_0_0) shapeCasts_S1x800000_S800000⟩, ⟨S50000, iotaInDim S50000 32 0⟩] concatenates_S800000_S50000_S850000_d0

/-- The targets of the 850000 messages: row 1 of the edge list, then every node once. -/
def dst (ei : (⟨S2x800000, .i32⟩ : BufTy).Contents (Elt F)) : (⟨S850000, .i32⟩ : BufTy).Contents (Elt F) :=
  concatenate S850000 0 [⟨S800000, shapeCast S800000 (extractStridedSlice S1x800000 ![1, 0] ei slices_S2x800000_S1x800000_1_0) shapeCasts_S1x800000_S800000⟩, ⟨S50000, iotaInDim S50000 32 0⟩] concatenates_S800000_S50000_S850000_d0

/-- A negative index counts from the end: 50000 is added to it. -/
def wrap (ix : (⟨S850000, .i32⟩ : BufTy).Contents (Elt F)) : (⟨S850000, .i32⟩ : BufTy).Contents (Elt F) :=
  select (cmpi .slt ix (broadcastInDim S850000 ![] bcast_S_S850000 (constantI S_ 32 0#32)))
    (addi ix (broadcastInDim S850000 ![] bcast_S_S850000 (constantI S_ 32 50000#32))) ix

/-- The number of messages each node receives. -/
def deg (ei : (⟨S2x800000, .i32⟩ : BufTy).Contents (Elt F)) : (⟨S50000, .f32⟩ : BufTy).Contents (Elt F) :=
  Host.scatterAdd scatter_S50000_S850000x1_S850000_n_0_0_1 (broadcastInDim S50000 ![] bcast_S_S50000 (constant S_ .f32 0x00000000#32))
    (col (dst (F := F) ei)) (broadcastInDim S850000 ![] bcast_S_S850000 (constant S_ .f32 0x3F800000#32))

/-- deg^(-1/2) where the degree is positive, 0 elsewhere. -/
def dis (ei : (⟨S2x800000, .i32⟩ : BufTy).Contents (Elt F)) : (⟨S50000, .f32⟩ : BufTy).Contents (Elt F) :=
  select (cmpf (F := F) .ogt (deg ei) (broadcastInDim S50000 ![] bcast_S_S50000 (constant S_ .f32 0x00000000#32)))
    (Host.rsqrt (deg ei)) (broadcastInDim S50000 ![] bcast_S_S50000 (constant S_ .f32 0x00000000#32))

/-- The weight of each message: dis at its source times dis at its target. -/
def norm (ei : (⟨S2x800000, .i32⟩ : BufTy).Contents (Elt F)) : (⟨S850000, .f32⟩ : BufTy).Contents (Elt F) :=
  mulf (Host.gather gather_S50000_S850000x1_S850000_n_0_n_n_0_1_1 (dis ei) (col (wrap (src (F := F) ei))))
    (Host.gather gather_S50000_S850000x1_S850000_n_0_n_n_0_1_1 (dis ei) (col (wrap (dst (F := F) ei))))

/-- Gather the rows of hw at the sources, scale each by its message's weight, sum them into the targets, add the bias
    to every row: 128 features. -/
def conv128 (ei : (⟨S2x800000, .i32⟩ : BufTy).Contents (Elt F)) (hw : (⟨S50000x128, .f32⟩ : BufTy).Contents (Elt F))
    (b : (⟨S128, .f32⟩ : BufTy).Contents (Elt F)) : (⟨S50000x128, .f32⟩ : BufTy).Contents (Elt F) :=
  addf (Host.scatterAdd scatter_S50000x128_S850000x1_S850000x128_1_0_0_1
      (broadcastInDim S50000x128 ![] bcast_S_S50000x128 (constant S_ .f32 0x00000000#32)) (col (dst (F := F) ei))
      (mulf (Host.gather gather_S50000x128_S850000x1_S850000x128_1_0_n_n_0_1_1128 hw (col (wrap (src (F := F) ei))))
        (broadcastInDim S850000x128 ![0, 1] bcast_S850000x1_S850000x128_0_1 (col (norm ei)))))
    (broadcastInDim S50000x128 ![0, 1] bcast_S1x128_S50000x128_0_1 (broadcastInDim S1x128 ![1] bcast_S128_S1x128_1 b))

/-- The same into 16 features. -/
def conv16 (ei : (⟨S2x800000, .i32⟩ : BufTy).Contents (Elt F)) (hw : (⟨S50000x16, .f32⟩ : BufTy).Contents (Elt F))
    (b : (⟨S16, .f32⟩ : BufTy).Contents (Elt F)) : (⟨S50000x16, .f32⟩ : BufTy).Contents (Elt F) :=
  addf (Host.scatterAdd scatter_S50000x16_S850000x1_S850000x16_1_0_0_1
      (broadcastInDim S50000x16 ![] bcast_S_S50000x16 (constant S_ .f32 0x00000000#32)) (col (dst (F := F) ei))
      (mulf (Host.gather gather_S50000x16_S850000x1_S850000x16_1_0_n_n_0_1_116 hw (col (wrap (src (F := F) ei))))
        (broadcastInDim S850000x16 ![0, 1] bcast_S850000x1_S850000x16_0_1 (col (norm ei)))))
    (broadcastInDim S50000x16 ![0, 1] bcast_S1x16_S50000x16_0_1 (broadcastInDim S1x16 ![1] bcast_S16_S1x16_1 b))

/-- max(·, 0) entry by entry. -/
def relu (h : (⟨S50000x128, .f32⟩ : BufTy).Contents (Elt F)) : (⟨S50000x128, .f32⟩ : BufTy).Contents (Elt F) :=
  maximumf h (broadcastInDim S50000x128 ![] bcast_S_S50000x128 (constant S_ .f32 0x00000000#32))

/-- The three products h · W, as the host computes them. -/
def mmIn (x : (⟨S50000x256, .f32⟩ : BufTy).Contents (Elt F)) (w : (⟨S256x128, .f32⟩ : BufTy).Contents (Elt F)) :
    (⟨S50000x128, .f32⟩ : BufTy).Contents (Elt F) :=
  Host.dotGeneral dot_S50000x256_S256x128_S50000x128_1_0_0_1_n_n none x w
def mmHid (h : (⟨S50000x128, .f32⟩ : BufTy).Contents (Elt F)) (w : (⟨S128x128, .f32⟩ : BufTy).Contents (Elt F)) :
    (⟨S50000x128, .f32⟩ : BufTy).Contents (Elt F) :=
  Host.dotGeneral dot_S50000x128_S128x128_S50000x128_1_0_0_1_n_n none h w
def mmOut (h : (⟨S50000x128, .f32⟩ : BufTy).Contents (Elt F)) (w : (⟨S128x16, .f32⟩ : BufTy).Contents (Elt F)) :
    (⟨S50000x16, .f32⟩ : BufTy).Contents (Elt F) :=
  Host.dotGeneral dot_S50000x128_S128x16_S50000x16_1_0_0_1_n_n none h w

/-- The features after the first, second and third convolution. -/
def h1 (x : (⟨S50000x256, .f32⟩ : BufTy).Contents (Elt F)) (ei : (⟨S2x800000, .i32⟩ : BufTy).Contents (Elt F))
    (W1 : (⟨S256x128, .f32⟩ : BufTy).Contents (Elt F)) (b1 : (⟨S128, .f32⟩ : BufTy).Contents (Elt F)) :
    (⟨S50000x128, .f32⟩ : BufTy).Contents (Elt F) :=
  relu (conv128 ei (mmIn x W1) b1)
def h2 (x : (⟨S50000x256, .f32⟩ : BufTy).Contents (Elt F)) (ei : (⟨S2x800000, .i32⟩ : BufTy).Contents (Elt F))
    (W1 : (⟨S256x128, .f32⟩ : BufTy).Contents (Elt F)) (b1 : (⟨S128, .f32⟩ : BufTy).Contents (Elt F))
    (Wh0 : (⟨S128x128, .f32⟩ : BufTy).Contents (Elt F)) (bh0 : (⟨S128, .f32⟩ : BufTy).Contents (Elt F)) :
    (⟨S50000x128, .f32⟩ : BufTy).Contents (Elt F) :=
  relu (conv128 ei (mmHid (h1 x ei W1 b1) Wh0) bh0)
/-- The latent features: the second result. -/
def latent (x : (⟨S50000x256, .f32⟩ : BufTy).Contents (Elt F)) (ei : (⟨S2x800000, .i32⟩ : BufTy).Contents (Elt F))
    (W1 : (⟨S256x128, .f32⟩ : BufTy).Contents (Elt F)) (b1 : (⟨S128, .f32⟩ : BufTy).Contents (Elt F))
    (Wh0 : (⟨S128x128, .f32⟩ : BufTy).Contents (Elt F)) (bh0 : (⟨S128, .f32⟩ : BufTy).Contents (Elt F))
    (Wh1 : (⟨S128x128, .f32⟩ : BufTy).Contents (Elt F)) (bh1 : (⟨S128, .f32⟩ : BufTy).Contents (Elt F)) :
    (⟨S50000x128, .f32⟩ : BufTy).Contents (Elt F) :=
  relu (conv128 ei (mmHid (h2 x ei W1 b1 Wh0 bh0) Wh1) bh1)
/-- The output: the first result. -/
def logits (x : (⟨S50000x256, .f32⟩ : BufTy).Contents (Elt F)) (ei : (⟨S2x800000, .i32⟩ : BufTy).Contents (Elt F))
    (W1 : (⟨S256x128, .f32⟩ : BufTy).Contents (Elt F)) (b1 : (⟨S128, .f32⟩ : BufTy).Contents (Elt F))
    (Wh0 : (⟨S128x128, .f32⟩ : BufTy).Contents (Elt F)) (bh0 : (⟨S128, .f32⟩ : BufTy).Contents (Elt F))
    (Wh1 : (⟨S128x128, .f32⟩ : BufTy).Contents (Elt F)) (bh1 : (⟨S128, .f32⟩ : BufTy).Contents (Elt F))
    (W2 : (⟨S128x16, .f32⟩ : BufTy).Contents (Elt F)) (b2 : (⟨S16, .f32⟩ : BufTy).Contents (Elt F)) :
    (⟨S50000x16, .f32⟩ : BufTy).Contents (Elt F) :=
  conv16 ei (mmOut (latent x ei W1 b1 Wh0 bh0 Wh1 bh1) W2) b2

end Cert.Net

end
-- ==== Proof.ReadFold.lean ====
/-
  Reading a fold of array operations at one buffer, inside the operand list of a concatenation.

  The fold of a list of operations over a memory, read at a buffer, is the writing operation's function of the fold read
  at its operands, and the fold below it at any other buffer. This reads such folds wherever they stand in a goal, one
  operation and one buffer at a time — in particular inside the operand list of a concatenation, whose well-formedness
  proof depends on the list.
-/
import Idealize.ShloMosaic.Lib.StableHlo.Run

namespace Idealize.ShloMosaic.StableHlo

/-- Rewrites each operation's result at its own result buffer to its function's value, and at any other buffer to what
    was there, until nothing is left to read. -/
macro "read_operands" : tactic =>
  `(tactic| repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)))

end Idealize.ShloMosaic.StableHlo
-- ==== Proof.KFold.lean ====
/-
  The idealized kernel's program with each launch read as one host product: one list of array operations, the same as the
  reference's. Folded over any memory and read at the two result buffers it gives, operation by operation, the terms the
  network is defined by — whatever the float arithmetic is.
-/
import proofs.«135576_j36593121362339_1_alg».proof.Proof.Gen.KernelIdeal.Launch
import proofs.«135576_j36593121362339_1_alg».proof.Proof.KProd
import proofs.«135576_j36593121362339_1_alg».proof.Proof.Net
import proofs.«135576_j36593121362339_1_alg».proof.Proof.ReadFold

noncomputable section

namespace Cert.KernelIdeal.KFold

open Idealize.ShloMosaic Idealize.ShloMosaic.TcCoe Idealize.SL.Sem Idealize.ShloMosaic.StableHlo
open Cert.KernelIdeal Cert.KernelIdeal.Gen

variable {F : FTy → Type} [FloatOps F]

/-- The memory after the ten stretches of array operations and the four products, in program order, from a memory V. -/
abbrev foldAll (V : Valuation τ sig (Elt F)) : Valuation τ sig (Elt F) :=
  after hostOps4 (KProd.prod3.result (after hostOps3_1 (after hostOps3 (KProd.prod2.result (after hostOps2_1 (after hostOps2
    (KProd.prod1.result (after hostOps1_1 (after hostOps1 (KProd.prod0.result (after hostOps0_2 (after hostOps0_1
      (after hostOps0 V)))))))))))))

set_option maxRecDepth 16384 in
set_option maxHeartbeats 51200000 in
/-- The buffer of the first result ends at the network's output. -/
theorem fold_logits (V : Valuation τ sig (Elt F)) : foldAll V (Proc.devRef .tc main_v101)
    = Cert.Net.logits (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) := by
  simp only [foldAll, hostOps0, hostOps0_1, hostOps0_2, hostOps1, hostOps1_1, hostOps2, hostOps2_1, hostOps3, hostOps3_1, hostOps4,
    KProd.prod0, KProd.prod1, KProd.prod2, KProd.prod3]
  after_results_simp
  read_operands
  rfl

set_option maxRecDepth 16384 in
set_option maxHeartbeats 51200000 in
/-- The buffer of the second result ends at the network's latent features. -/
theorem fold_latent (V : Valuation τ sig (Elt F)) : foldAll V (Proc.devRef .tc main_v84)
    = Cert.Net.latent (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  simp only [foldAll, hostOps0, hostOps0_1, hostOps0_2, hostOps1, hostOps1_1, hostOps2, hostOps2_1, hostOps3, hostOps3_1, hostOps4,
    KProd.prod0, KProd.prod1, KProd.prod2, KProd.prod3]
  after_results_simp
  read_operands
  rfl

end Cert.KernelIdeal.KFold

end
-- ==== Proof.KRun.lean ====
/-
  The idealized kernel's whole run, with every buffer of the final memory named.

  The program is fourteen segments: stretches of array operations and four launches of the matrix product kernel. The
  generated frame runs them in order and keeps, at each boundary, what every buffer holds (the fold W0 … W14 through
  the segments). Its conclusion only says that the argument arrays end as launched; read here is the same run's last
  state in full: every buffer that lives through the whole run ends at what the fold leaves there, W14.
-/
import proofs.«135576_j36593121362339_1_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, and in the final memory every buffer that
    is not a launch's own staging buffer holds what the fold through the fourteen segments leaves there. -/
theorem run_all : θ_run defs (onTc (τ := τ) (main (F := F))) ⟨m, fun _ => 0, ρ⟩ (fun r => ∀ c : Dev nD,
      ∀ b : Ref sig .tc, ¬ (Proc.devRef .tc b : DevRef τ sig).isScoped →
        r.2.mem ((c.tc : Thread nD τ).loc b) = W14 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c b hb => h c _ (mem_uc b hb))

end Cert.KernelIdeal.Whole

end
-- ==== Proof.KValue.lean ====
/-
  What the idealized kernel computes: its two results are the network's output and latent features of its arguments.

  Each launch of the matrix product kernel leaves the memory as one host product would (KLaunch), so the fold of the
  program's fourteen segments over the launch memory is the fold of one list of array operations (KFold), which at the
  two result buffers is the network's output and latent features of the launch memory's argument arrays.
-/
import proofs.«135576_j36593121362339_1_alg».proof.Proof.KLaunch
import proofs.«135576_j36593121362339_1_alg».proof.Proof.KFold
import proofs.«135576_j36593121362339_1_alg».proof.Proof.KRun

set_option maxRecDepth 16384

noncomputable section

namespace Cert.KernelIdeal.KValue

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-- The buffer of the first result ends at the network's output. -/
theorem logits_eq (c : Dev nD) : W14 m ρ c (Proc.devRef .tc main_v101)
    = Cert.Net.logits (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  show after hostOps4 (W13 m ρ c) (Proc.devRef .tc main_v101) = _
  rw [KLaunch.W13_eq m ρ c]; dsimp only [W12, W11]
  rw [KLaunch.W10_eq m ρ c]; dsimp only [W9, W8]
  rw [KLaunch.W7_eq m ρ c]; dsimp only [W6, W5]
  rw [KLaunch.W4_eq m ρ c]; dsimp only [W3, W2, W1]
  exact KFold.fold_logits (F := Ideal) (W0 m ρ c)

/-- The buffer of the second result ends at the network's latent features. -/
theorem latent_eq (c : Dev nD) : W14 m ρ c (Proc.devRef .tc main_v84)
    = Cert.Net.latent (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  show after hostOps4 (W13 m ρ c) (Proc.devRef .tc main_v84) = _
  rw [KLaunch.W13_eq m ρ c]; dsimp only [W12, W11]
  rw [KLaunch.W10_eq m ρ c]; dsimp only [W9, W8]
  rw [KLaunch.W7_eq m ρ c]; dsimp only [W6, W5]
  rw [KLaunch.W4_eq m ρ c]; dsimp only [W3, W2, W1]
  exact KFold.fold_latent (F := Ideal) (W0 m ρ c)
/-- The idealized kernel's run, read: both results at the network's values of the arguments, the arguments unchanged. -/
theorem run : θ_run defs (onTc (τ := τ) (main (F := Ideal))) ⟨m, fun _ => 0, ρ⟩ (fun r => ∀ c : Dev nD,
      r.2.mem ((c.tc : Thread nD τ).loc main_v101) = Cert.Net.logits (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_v84) = Cert.Net.latent (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c main_v101 (by decide)).trans (logits_eq m ρ c), (h c main_v84 (by decide)).trans (latent_eq m ρ c),
     (h c main_arg0 (by decide)).trans (W14_main_arg0 m ρ c),
     (h c main_arg1 (by decide)).trans (W14_main_arg1 m ρ c),
     (h c main_arg2 (by decide)).trans (W14_main_arg2 m ρ c),
     (h c main_arg3 (by decide)).trans (W14_main_arg3 m ρ c),
     (h c main_arg4 (by decide)).trans (W14_main_arg4 m ρ c),
     (h c main_arg5 (by decide)).trans (W14_main_arg5 m ρ c),
     (h c main_arg6 (by decide)).trans (W14_main_arg6 m ρ c),
     (h c main_arg7 (by decide)).trans (W14_main_arg7 m ρ c),
     (h c main_arg8 (by decide)).trans (W14_main_arg8 m ρ c),
     (h c main_arg9 (by decide)).trans (W14_main_arg9 m ρ c)⟩)
    (Cert.KernelIdeal.Whole.run_all m ρ)

end Cert.KernelIdeal.KValue

end
-- ==== Proof.RefValue.lean ====
/-
  What the reference computes: its two results are the network's output and latent features of its argument arrays.

  The reference is one list of array operations. Folding the list over the launch memory and reading the fold at the two
  result buffers gives, operation by operation, exactly the terms the network is defined by.
-/
import proofs.«135576_j36593121362339_1_alg».proof.Proof.RefRun
import proofs.«135576_j36593121362339_1_alg».proof.Proof.Net
import proofs.«135576_j36593121362339_1_alg».proof.Proof.ReadFold

noncomputable section

namespace Cert.ReferenceIdeal.RefValue

open Cert.ReferenceIdeal Cert.ReferenceIdeal.Gen Cert.ReferenceIdeal.RunP Idealize.ShloMosaic Idealize.ShloMosaic.TcCoe Idealize.SL.Sem Idealize.ShloMosaic.StableHlo

variable {F : FTy → Type} [FloatOps F]

set_option maxRecDepth 8192 in
set_option maxHeartbeats 51200000 in
/-- The buffer of the first result ends at the network's output. -/
theorem logits_eq (m : (ℓ : Loc nD τ sig) → Buf (Elt F) ℓ) (c : Dev nD) :
    after (ops (F := F)) (launchContents m c) (Proc.devRef .tc main_v101)
      = Cert.Net.logits (F := F) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9)) := by
  after_results_simp
  read_operands
  rfl

set_option maxRecDepth 8192 in
set_option maxHeartbeats 51200000 in
/-- The buffer of the second result ends at the network's latent features. -/
theorem latent_eq (m : (ℓ : Loc nD τ sig) → Buf (Elt F) ℓ) (c : Dev nD) :
    after (ops (F := F)) (launchContents m c) (Proc.devRef .tc main_v84)
      = Cert.Net.latent (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  after_results_simp
  read_operands
  rfl

set_option maxRecDepth 8192 in
set_option maxHeartbeats 51200000 in
/-- The reference's run, read: both results at the network's values of the arguments, the arguments unchanged (no
    operation writes an argument's buffer). -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v101) = Cert.Net.logits (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_v84) = Cert.Net.latent (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c =>
    ⟨(h c main_v101).trans (logits_eq m c), (h c main_v84).trans (latent_eq m c),
     (h c main_arg0).trans (by after_results_simp <;> rfl),
     (h c main_arg1).trans (by after_results_simp <;> rfl),
     (h c main_arg2).trans (by after_results_simp <;> rfl),
     (h c main_arg3).trans (by after_results_simp <;> rfl),
     (h c main_arg4).trans (by after_results_simp <;> rfl),
     (h c main_arg5).trans (by after_results_simp <;> rfl),
     (h c main_arg6).trans (by after_results_simp <;> rfl),
     (h c main_arg7).trans (by after_results_simp <;> rfl),
     (h c main_arg8).trans (by after_results_simp <;> rfl),
     (h c main_arg9).trans (by after_results_simp <;> rfl)⟩)
    (run_after m ρ)

end Cert.ReferenceIdeal.RefValue

end
-- ==== Proof.lean ====
/-
  A four-layer graph convolution network, computed by a program whose four dense products h · W run as a row-tiled
  matrix-unit kernel (bf16 operands, f32 accumulation), against a reference that computes each product with one
  dot_general. Everything around the products — the message sources and targets, the degree normalisation, the gather,
  scale and scatter-add of messages, the biases, the max(·, 0) — is the same list of array operations in both programs.

  On the extended reals the change of float format is the identity and a product into a zero accumulator is the exact
  sum of products, so every band of 2000 rows the kernel writes is that band of the whole product, and the 25 bands
  tile the result (Band0 … Band3). Each launch therefore changes the memory as one host product would (KValue), the
  idealized kernel's run is the fold of the reference's list of operations (KRun, KValue), and both programs end with
  their two results at the network's output and latent features of the arguments (Net, KValue, RefValue). No law of
  arithmetic is needed beyond that, so finiteness of the inputs is never used.

  The three frames: the two kernel programs' are the generated frames; the reference's is its run with the results
  dropped. The idealization rewrote no operation, so there is nothing to preserve.
-/
import proofs.«135576_j36593121362339_1_alg».proof.Defs
import proofs.«135576_j36593121362339_1_alg».proof.Proof.Gen.Kernel
import proofs.«135576_j36593121362339_1_alg».proof.Proof.Gen.Kernel.Skeleton
import proofs.«135576_j36593121362339_1_alg».proof.Proof.Gen.Kernel.Launch
import proofs.«135576_j36593121362339_1_alg».proof.Proof.Gen.Kernel.Points
import proofs.«135576_j36593121362339_1_alg».proof.Proof.Gen.Kernel.Frame
import proofs.«135576_j36593121362339_1_alg».proof.Proof.Gen.KernelIdeal
import proofs.«135576_j36593121362339_1_alg».proof.Proof.Gen.KernelIdeal.Skeleton
import proofs.«135576_j36593121362339_1_alg».proof.Proof.Gen.KernelIdeal.Launch
import proofs.«135576_j36593121362339_1_alg».proof.Proof.Gen.KernelIdeal.Points
import proofs.«135576_j36593121362339_1_alg».proof.Proof.Gen.KernelIdeal.Frame
import proofs.«135576_j36593121362339_1_alg».proof.Proof.Gen.ReferenceIdeal
import proofs.«135576_j36593121362339_1_alg».proof.Proof.Gen.Pre_finite_inputs
import proofs.«135576_j36593121362339_1_alg».proof.Proof.KValue
import proofs.«135576_j36593121362339_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2.2) (Cert.ReferenceIdeal.RefValue.run (F := Ideal) m ρ)

/-- Both programs, from memories that agree on the arguments, end with their results at the network's output and
    latent features of the same arrays. -/
theorem algebraic : Cert.algebraic_KernelIdeal_ReferenceIdeal := by
  intro m ρ m' ρ' _ hagree
  refine ⟨fun c => Cert.Net.logits (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    fun c => Cert.Net.latent (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    Cert.KernelIdeal.KValue.run m ρ, ?_⟩
  refine (θ_run Cert.ReferenceIdeal.defs _ _).mono (fun _ h c => ?_) (Cert.ReferenceIdeal.RefValue.run (F := Ideal) m' ρ')
  obtain ⟨h0, h1, hrest⟩ := h c
  obtain ⟨a0, a1, a2, a3, a4, a5, a6, a7, a8, a9⟩ := hagree c
  refine ⟨h0.trans ?_, h1.trans ?_, hrest⟩
  · rw [a0, a1, a2, a3, a4, a5, a6, a7, a8, a9]
  · rw [a0, a1, a2, a3, a4, a5, a6, a7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
